-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg8 : FVec F S256x256 .f32) (main_arg9 : FVec F S256x256 .f32) (main_arg10 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg8
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg9
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256x256 .f32 := Host.absf main_arg10
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  main_v33

def fn {F : FTy → Type} [FloatOps F] (main_arg0 : FVec F S50000x256 .f32) (main_arg1 : IVec S800000 32) (main_arg2 : IVec S800000 32) (main_arg3 : FVec F S800000 .f32) (main_arg4 : IVec S800000 32) (main_arg5 : IVec S800000 32) (main_arg6 : FVec F S800000 .f32) (main_arg7 : FVec F S256x256 .f32) (main_arg8 : FVec F S256x256 .f32) (main_arg9 : FVec F S256x256 .f32) (main_arg10 : FVec F S256x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S800000 .f32 := Host.absf main_arg6
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S256x256 .f32 := Host.absf main_arg7
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg8 main_arg9 main_arg10 main_v13 main_v16
-- ==== Kernel.lean ====
abbrev S50000x256 : Shape := ⟨2, ![50000, 256]⟩
abbrev S800000 : Shape := ⟨1, ![800000]⟩
abbrev S256x256 : Shape := ⟨2, ![256, 256]⟩
abbrev S5000x256 : Shape := ⟨2, ![5000, 256]⟩
abbrev S800000x1 : Shape := ⟨2, ![800000, 1]⟩
abbrev S_ : Shape := ⟨0, ![]⟩
abbrev S800000x256 : Shape := ⟨2, ![800000, 256]⟩
abbrev S400000x256 : Shape := ⟨2, ![400000, 256]⟩

abbrev nBuf : Space → Nat
  | .hbm => 82
  | .vmem => 34
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S800000, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S50000x256, .f32⟩
  | .hbm, ⟨12, _⟩ => ⟨S50000x256, .f32⟩
  | .hbm, ⟨13, _⟩ => ⟨S800000x1, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x256, .f32⟩
  | .hbm, ⟨23, _⟩ => ⟨S800000x256, .f32⟩
  | .hbm, ⟨24, _⟩ => ⟨S800000x256, .f32⟩
  | .hbm, ⟨25, _⟩ => ⟨S_, .f32⟩
  | .hbm, ⟨26, _⟩ => ⟨S50000x256, .f32⟩
  | .hbm, ⟨27, _⟩ => ⟨S800000x1, .i32⟩
  | .hbm, ⟨28, _⟩ => ⟨S50000x256, .f32⟩
  | .hbm, ⟨29, _⟩ => ⟨S50000x256, .f32⟩
  | .hbm, ⟨30, _⟩ => ⟨S800000x1, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x256, .f32⟩
  | .hbm, ⟨40, _⟩ => ⟨S800000x256, .f32⟩
  | .hbm, ⟨41, _⟩ => ⟨S800000x256, .f32⟩
  | .hbm, ⟨42, _⟩ => ⟨S_, .f32⟩
  | .hbm, ⟨43, _⟩ => ⟨S400000x256, .f32⟩
  | .hbm, ⟨44, _⟩ => ⟨S800000x1, .i32⟩
  | .hbm, ⟨45, _⟩ => ⟨S400000x256, .f32⟩
  | .hbm, ⟨46, _⟩ => ⟨S400000x256, .f32⟩
  | .hbm, ⟨47, _⟩ => ⟨S50000x256, .f32⟩
  | .hbm, ⟨48, _⟩ => ⟨S400000x256, .f32⟩
  | .hbm, ⟨49, _⟩ => ⟨S800000x1, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x256, .f32⟩
  | .hbm, ⟨59, _⟩ => ⟨S800000x256, .f32⟩
  | .hbm, ⟨60, _⟩ => ⟨S800000x256, .f32⟩
  | .hbm, ⟨61, _⟩ => ⟨S_, .f32⟩
  | .hbm, ⟨62, _⟩ => ⟨S50000x256, .f32⟩
  | .hbm, ⟨63, _⟩ => ⟨S800000x1, .i32⟩
  | .hbm, ⟨64, _⟩ => ⟨S50000x256, .f32⟩
  | .hbm, ⟨65, _⟩ => ⟨S800000x1, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x256, .f32⟩
  | .hbm, ⟨75, _⟩ => ⟨S800000x256, .f32⟩
  | .hbm, ⟨76, _⟩ => ⟨S800000x256, .f32⟩
  | .hbm, ⟨77, _⟩ => ⟨S_, .f32⟩
  | .hbm, ⟨78, _⟩ => ⟨S50000x256, .f32⟩
  | .hbm, ⟨79, _⟩ => ⟨S800000x1, .i32⟩
  | .hbm, ⟨80, _⟩ => ⟨S50000x256, .f32⟩
  | .hbm, ⟨81, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S5000x256, .f32⟩
  | .local _ .vmem, ⟨15, _⟩ => ⟨S5000x256, .f32⟩
  | .local _ .vmem, ⟨16, _⟩ => ⟨S5000x256, .f32⟩
  | .local _ .vmem, ⟨17, _⟩ => ⟨S5000x256, .f32⟩
  | .local _ .vmem, ⟨18, _⟩ => ⟨S5000x256, .f32⟩
  | .local _ .vmem, ⟨19, _⟩ => ⟨S5000x256, .f32⟩
  | .local _ .vmem, ⟨20, _⟩ => ⟨S256x256, .f32⟩
  | .local _ .vmem, ⟨21, _⟩ => ⟨S5000x256, .f32⟩
  | .local _ .vmem, ⟨22, _⟩ => ⟨S5000x256, .f32⟩
  | .local _ .vmem, ⟨23, _⟩ => ⟨S5000x256, .f32⟩
  | .local _ .vmem, ⟨24, _⟩ => ⟨S5000x256, .f32⟩
  | .local _ .vmem, ⟨25, _⟩ => ⟨S256x256, .f32⟩
  | .local _ .vmem, ⟨26, _⟩ => ⟨S5000x256, .f32⟩
  | .local _ .vmem, ⟨27, _⟩ => ⟨S5000x256, .f32⟩
  | .local _ .vmem, ⟨28, _⟩ => ⟨S5000x256, .f32⟩
  | .local _ .vmem, ⟨29, _⟩ => ⟨S5000x256, .f32⟩
  | .local _ .vmem, ⟨30, _⟩ => ⟨S5000x256, .f32⟩
  | .local _ .vmem, ⟨31, _⟩ => ⟨S5000x256, .f32⟩
  | .local _ .vmem, ⟨32, _⟩ => ⟨S5000x256, .f32⟩
  | .local _ .vmem, ⟨33, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_7 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_9 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg2_0 : Ref sig .tc := ⟨.vmem, 21, rfl⟩
abbrev cc4_stg2_1 : Ref sig .tc := ⟨.vmem, 22, rfl⟩
abbrev cc5_stg0_0 : Ref sig .tc := ⟨.vmem, 23, rfl⟩
abbrev cc5_stg0_1 : Ref sig .tc := ⟨.vmem, 24, rfl⟩
abbrev cc5_stg1_0 : Ref sig .tc := ⟨.vmem, 25, rfl⟩
abbrev cc5_stg2_0 : Ref sig .tc := ⟨.vmem, 26, rfl⟩
abbrev cc5_stg2_1 : Ref sig .tc := ⟨.vmem, 27, rfl⟩
abbrev cc6_stg0_0 : Ref sig .tc := ⟨.vmem, 28, rfl⟩
abbrev cc6_stg0_1 : Ref sig .tc := ⟨.vmem, 29, rfl⟩
abbrev cc6_stg1_0 : Ref sig .tc := ⟨.vmem, 30, rfl⟩
abbrev cc6_stg1_1 : Ref sig .tc := ⟨.vmem, 31, rfl⟩
abbrev cc6_stg2_0 : Ref sig .tc := ⟨.vmem, 32, rfl⟩
abbrev cc6_stg2_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc3_sem0_0 : DmaSem sig := 14
abbrev cc3_sem0_1 : DmaSem sig := 15
abbrev cc3_sem1_0 : DmaSem sig := 16
abbrev cc3_sem1_1 : DmaSem sig := 17
abbrev cc4_sem0_0 : DmaSem sig := 18
abbrev cc4_sem0_1 : DmaSem sig := 19
abbrev cc4_sem1_0 : DmaSem sig := 20
abbrev cc4_sem2_0 : DmaSem sig := 21
abbrev cc4_sem2_1 : DmaSem sig := 22
abbrev cc5_sem0_0 : DmaSem sig := 23
abbrev cc5_sem0_1 : DmaSem sig := 24
abbrev cc5_sem1_0 : DmaSem sig := 25
abbrev cc5_sem2_0 : DmaSem sig := 26
abbrev cc5_sem2_1 : DmaSem sig := 27
abbrev cc6_sem0_0 : DmaSem sig := 28
abbrev cc6_sem0_1 : DmaSem sig := 29
abbrev cc6_sem1_0 : DmaSem sig := 30
abbrev cc6_sem1_1 : DmaSem sig := 31
abbrev cc6_sem2_0 : DmaSem sig := 32
abbrev cc6_sem2_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![80], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![80], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S5000x256_S5000x256 : S5000x256.ShapeCasts S5000x256
  bcast_S_S400000x256 : S_.BroadcastsInDim S400000x256 (![] : Fin 0 → Fin S400000x256.rank)
  dot_S5000x256_S256x256_S5000x256_1_0_0_1_n_n_wf : DotDims.WF S5000x256 S256x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S400000x256_S800000x1_S800000x256_1_0_0_1_wf : ScatterDims.WF S400000x256 S800000x1 S800000x256 [1] [0] [0] 1
  gather_S400000x256_S800000x1_S800000x256_1_0_n_n_0_1_1256_wf : GatherDims.WF S400000x256 S800000x1 S800000x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x256.size a ≤ S50000x256.size a
  hwx2_1 : ∀ i : grid2.Coords, EltTy.bits .f32 = 32 ∨ (Rect.block (s := S50000x256) S5000x256.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S400000x256.size a
  hwx3_0 : ∀ i : grid3.Coords, EltTy.bits .f32 = 32 ∨ (Rect.block (s := S400000x256) S5000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x256.size a ≤ S400000x256.size a
  hwx3_1 : ∀ i : grid3.Coords, EltTy.bits .f32 = 32 ∨ (Rect.block (s := S400000x256) S5000x256.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .f32 = 32 ∨ (Rect.block (s := S50000x256) S5000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x256.size a ≤ S50000x256.size a
  hwx4_2 : ∀ i : grid4.Coords, EltTy.bits .f32 = 32 ∨ (Rect.block (s := S50000x256) S5000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x256.size a ≤ S400000x256.size a
  hwx5_0 : ∀ i : grid5.Coords, EltTy.bits .f32 = 32 ∨ (Rect.block (s := S400000x256) S5000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .f32 = 32 ∨ (Rect.block (s := S256x256) S256x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x256.size a ≤ S400000x256.size a
  hwx5_2 : ∀ i : grid5.Coords, EltTy.bits .f32 = 32 ∨ (Rect.block (s := S400000x256) S5000x256.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x256.size a ≤ S50000x256.size a
  hwx6_0 : ∀ i : grid6.Coords, EltTy.bits .f32 = 32 ∨ (Rect.block (s := S50000x256) S5000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x256.size a ≤ S50000x256.size a
  hwx6_1 : ∀ i : grid6.Coords, EltTy.bits .f32 = 32 ∨ (Rect.block (s := S50000x256) S5000x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x256.size a ≤ S50000x256.size a
  hwx6_2 : ∀ i : grid6.Coords, EltTy.bits .f32 = 32 ∨ (Rect.block (s := S50000x256) S5000x256.size (cc6_transform_2 i) (hinb6_2 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S400000x256_S800000x1_S800000x256_1_0_0_1 : ScatterDims S400000x256 S800000x1 S800000x256 where
  updateWindowDims := [1]
  insertedWindowDims := [0]
  scatterDimsToOperandDims := [0]
  indexVectorDim := 1
  wf := scatter_S400000x256_S800000x1_S800000x256_1_0_0_1_wf
def gather_S400000x256_S800000x1_S800000x256_1_0_n_n_0_1_1256 : GatherDims S400000x256 S800000x1 S800000x256 where
  offsetDims := [1]
  collapsedSliceDims := [0]
  operandBatchingDims := []
  startIndicesBatchingDims := []
  startIndexMap := [0]
  indexVectorDim := 1
  sliceSizes := ![1, 256]
  wf := gather_S400000x256_S800000x1_S800000x256_1_0_n_n_0_1_1256_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v14) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x256.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v28) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S5000x256.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v15) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v30) S5000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v29) S5000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg10) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v31) S5000x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v44) S5000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v57) S5000x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v58) S5000x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S800000x1 : Shape := ⟨2, ![800000, 1]⟩
abbrev S_ : Shape := ⟨0, ![]⟩
abbrev S800000x256 : Shape := ⟨2, ![800000, 256]⟩
abbrev S400000x256 : Shape := ⟨2, ![400000, 256]⟩

abbrev nBuf : Space → Nat
  | .hbm => 104
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S800000, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S50000x256, .f32⟩
  | .hbm, ⟨12, _⟩ => ⟨S800000x1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x256, .f32⟩
  | .hbm, ⟨22, _⟩ => ⟨S800000x256, .f32⟩
  | .hbm, ⟨23, _⟩ => ⟨S800000x256, .f32⟩
  | .hbm, ⟨24, _⟩ => ⟨S_, .f32⟩
  | .hbm, ⟨25, _⟩ => ⟨S50000x256, .f32⟩
  | .hbm, ⟨26, _⟩ => ⟨S800000x1, .i32⟩
  | .hbm, ⟨27, _⟩ => ⟨S50000x256, .f32⟩
  | .hbm, ⟨28, _⟩ => ⟨S50000x256, .f32⟩
  | .hbm, ⟨29, _⟩ => ⟨S50000x256, .f32⟩
  | .hbm, ⟨30, _⟩ => ⟨S_, .f32⟩
  | .hbm, ⟨31, _⟩ => ⟨S50000x256, .f32⟩
  | .hbm, ⟨32, _⟩ => ⟨S50000x256, .f32⟩
  | .hbm, ⟨33, _⟩ => ⟨S_, .f32⟩
  | .hbm, ⟨34, _⟩ => ⟨S50000x256, .f32⟩
  | .hbm, ⟨35, _⟩ => ⟨S50000x256, .f32⟩
  | .hbm, ⟨36, _⟩ => ⟨S50000x256, .f32⟩
  | .hbm, ⟨37, _⟩ => ⟨S800000x1, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x256, .f32⟩
  | .hbm, ⟨47, _⟩ => ⟨S800000x256, .f32⟩
  | .hbm, ⟨48, _⟩ => ⟨S800000x256, .f32⟩
  | .hbm, ⟨49, _⟩ => ⟨S_, .f32⟩
  | .hbm, ⟨50, _⟩ => ⟨S400000x256, .f32⟩
  | .hbm, ⟨51, _⟩ => ⟨S800000x1, .i32⟩
  | .hbm, ⟨52, _⟩ => ⟨S400000x256, .f32⟩
  | .hbm, ⟨53, _⟩ => ⟨S400000x256, .f32⟩
  | .hbm, ⟨54, _⟩ => ⟨S400000x256, .f32⟩
  | .hbm, ⟨55, _⟩ => ⟨S_, .f32⟩
  | .hbm, ⟨56, _⟩ => ⟨S400000x256, .f32⟩
  | .hbm, ⟨57, _⟩ => ⟨S400000x256, .f32⟩
  | .hbm, ⟨58, _⟩ => ⟨S_, .f32⟩
  | .hbm, ⟨59, _⟩ => ⟨S400000x256, .f32⟩
  | .hbm, ⟨60, _⟩ => ⟨S400000x256, .f32⟩
  | .hbm, ⟨61, _⟩ => ⟨S50000x256, .f32⟩
  | .hbm, ⟨62, _⟩ => ⟨S800000x1, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x256, .f32⟩
  | .hbm, ⟨72, _⟩ => ⟨S800000x256, .f32⟩
  | .hbm, ⟨73, _⟩ => ⟨S800000x256, .f32⟩
  | .hbm, ⟨74, _⟩ => ⟨S_, .f32⟩
  | .hbm, ⟨75, _⟩ => ⟨S50000x256, .f32⟩
  | .hbm, ⟨76, _⟩ => ⟨S800000x1, .i32⟩
  | .hbm, ⟨77, _⟩ => ⟨S50000x256, .f32⟩
  | .hbm, ⟨78, _⟩ => ⟨S400000x256, .f32⟩
  | .hbm, ⟨79, _⟩ => ⟨S800000x1, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x256, .f32⟩
  | .hbm, ⟨89, _⟩ => ⟨S800000x256, .f32⟩
  | .hbm, ⟨90, _⟩ => ⟨S800000x256, .f32⟩
  | .hbm, ⟨91, _⟩ => ⟨S_, .f32⟩
  | .hbm, ⟨92, _⟩ => ⟨S50000x256, .f32⟩
  | .hbm, ⟨93, _⟩ => ⟨S800000x1, .i32⟩
  | .hbm, ⟨94, _⟩ => ⟨S50000x256, .f32⟩
  | .hbm, ⟨95, _⟩ => ⟨S50000x256, .f32⟩
  | .hbm, ⟨96, _⟩ => ⟨S50000x256, .f32⟩
  | .hbm, ⟨97, _⟩ => ⟨S50000x256, .f32⟩
  | .hbm, ⟨98, _⟩ => ⟨S_, .f32⟩
  | .hbm, ⟨99, _⟩ => ⟨S50000x256, .f32⟩
  | .hbm, ⟨100, _⟩ => ⟨S50000x256, .f32⟩
  | .hbm, ⟨101, _⟩ => ⟨S_, .f32⟩
  | .hbm, ⟨102, _⟩ => ⟨S50000x256, .f32⟩
  | .hbm, ⟨103, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_v72 : Ref sig .tc := ⟨.hbm, 100, rfl⟩
abbrev main_cst_15 : Ref sig .tc := ⟨.hbm, 101, rfl⟩
abbrev main_v73 : Ref sig .tc := ⟨.hbm, 102, rfl⟩
abbrev main_v74 : Ref sig .tc := ⟨.hbm, 103, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S_S400000x256 : S_.BroadcastsInDim S400000x256 (![] : Fin 0 → Fin S400000x256.rank)
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S400000x256_S800000x1_S800000x256_1_0_0_1_wf : ScatterDims.WF S400000x256 S800000x1 S800000x256 [1] [0] [0] 1
  dot_S400000x256_S256x256_S400000x256_1_0_0_1_n_n_wf : DotDims.WF S400000x256 S256x256 S400000x256 [1] [0] [0] [1] [] []
  gather_S400000x256_S800000x1_S800000x256_1_0_n_n_0_1_1256_wf : GatherDims.WF S400000x256 S800000x1 S800000x256 [1] [0] [] [0] [] 1 ![1, 256]

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S400000x256_S800000x1_S800000x256_1_0_0_1 : ScatterDims S400000x256 S800000x1 S800000x256 where
  updateWindowDims := [1]
  insertedWindowDims := [0]
  scatterDimsToOperandDims := [0]
  indexVectorDim := 1
  wf := scatter_S400000x256_S800000x1_S800000x256_1_0_0_1_wf
def dot_S400000x256_S256x256_S400000x256_1_0_0_1_n_n : DotDims S400000x256 S256x256 S400000x256 where
  lhsContracting := [1]
  rhsContracting := [0]
  lhsNonContracting := [0]
  rhsNonContracting := [1]
  lhsBatch := []
  rhsBatch := []
  wf := dot_S400000x256_S256x256_S400000x256_1_0_0_1_n_n_wf
def gather_S400000x256_S800000x1_S800000x256_1_0_n_n_0_1_1256 : GatherDims S400000x256 S800000x1 S800000x256 where
  offsetDims := [1]
  collapsedSliceDims := [0]
  operandBatchingDims := []
  startIndicesBatchingDims := []
  startIndexMap := [0]
  indexVectorDim := 1
  sliceSizes := ![1, 256]
  wf := gather_S400000x256_S800000x1_S800000x256_1_0_n_n_0_1_1256_wf

class Facts : Prop extends Facts₀ where

variable [Facts]
-- ==== Proof.KernelRun.lean ====
/-
  The kernel program's run with its result named.

  @main is seven pallas calls among three stretches of host operations. Every weakly fair execution terminates without a
  fault, and at the end every buffer outside the kernels' scratch holds the contents the fold of the segments leaves in it
  (`W10`: after a host stretch the operations' values, after a pallas call its arrays at what its write-backs leave,
  every other buffer as before). The frame claim reads only the argument buffers out of that final state; this module
  reads the RESULT buffer `main_v58` as well, by the same launch theorem over the same segments.
-/
import proofs.«159232_j19061064860111_1_alg».proof.Proof.Patched.KernelIdeal.Frame

set_option maxRecDepth 16384

noncomputable section

namespace Cert.KernelIdeal.RunValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and the argument buffers as launched. -/
theorem run : θ_run defs (onTc (τ := τ) (main (F := F))) ⟨m, fun _ => 0, ρ⟩ (fun r => ∀ c : Dev nD,
      r.2.mem ((c.tc : Thread nD τ).loc main_v58) = W10 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v58 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.RunValue

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«159232_j19061064860111_1_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.Spec.lean ====
/-
  The common specification of the two programs, as one function of the eleven argument arrays.

  A two-level message-passing layer on a graph with 50000 nodes and 400000 edges, 256 channels:
    level 1:  n1 = σ(A · (x W00)),   e1 = σ(Bᵀ · (x W01))
    level 2:  n2 = A · (n1 W10),     e2 = B · (e1 W11)
    result:   σ(n2 + e2)
  where σ(v) = 1 / (1 + e^(-v)) entrywise, A is the node-to-node matrix and B the node-to-edge matrix, both given in
  coordinate form (800000 triples row, column, value), and "S · y" for a coordinate-form matrix S is the segment sum:
  row r of the result is the sum over the triples (r, c, v) of v · (row c of y), a negative column index c being read as
  c + (number of rows of y).

  The sparse products are the SAME host operations in both programs, so they are named here once and never opened.
  The two programs differ in how they compute the dense products x W (row block by row block on the matrix unit against
  one whole product) and σ (one operation against negate, exponential, add, divide); both differences vanish over the
  extended reals: `dense_eq`, `sigma_nodes_eq`, `sigma_edges_eq`.
-/
import proofs.«159232_j19061064860111_1_alg».proof.Proof.Gen.ReferenceIdeal
import proofs.«159232_j19061064860111_1_alg».proof.Proof.LibDotGeneralPlain

noncomputable section

namespace Cert.Bridge

open Idealize.ShloMosaic Cert.ReferenceIdeal Cert.ReferenceIdeal.Gen Cert.LibDotGeneralPlain

/-- The integer index vectors (800000 entries of 32 bits) and the float value vector of a coordinate-form matrix. -/
abbrev IdxVec : Type := IVec S800000 32
abbrev ValVec : Type := FVec Ideal S800000 .f32
/-- A node table (50000 rows), an edge table (400000 rows), a weight matrix; 256 channels each. -/
abbrev NodeMat : Type := FVec Ideal S50000x256 .f32
abbrev EdgeMat : Type := FVec Ideal S400000x256 .f32
abbrev Weight : Type := FVec Ideal S256x256 .f32

/-- A column index into a 50000-row table, a negative one counted from the end. -/
def wrapNodes (cols : IdxVec) : IdxVec :=
  select (cmpi .slt cols (broadcastInDim S800000 ![] bcast_S_S800000 (constantI S_ 32 0#32)))
    (addi cols (broadcastInDim S800000 ![] bcast_S_S800000 (constantI S_ 32 50000#32))) cols

/-- A column index into a 400000-row table, a negative one counted from the end. -/
def wrapEdges (cols : IdxVec) : IdxVec :=
  select (cmpi .slt cols (broadcastInDim S800000 ![] bcast_S_S800000 (constantI S_ 32 0#32)))
    (addi cols (broadcastInDim S800000 ![] bcast_S_S800000 (constantI S_ 32 400000#32))) cols

/-- The weighted rows v_e · y[c_e] of a node table, one per triple. -/
def weightedNodeRows (cols : IdxVec) (vals : ValVec) (y : NodeMat) : FVec Ideal S800000x256 .f32 :=
  mulf (broadcastInDim S800000x256 ![0, 1] bcast_S800000x1_S800000x256_0_1 (broadcastInDim S800000x1 ![0] bcast_S800000_S800000x1_0 vals))
    (Host.gather gather_S50000x256_S800000x1_S800000x256_1_0_n_n_0_1_1256 y
      (broadcastInDim S800000x1 ![0] bcast_S800000_S800000x1_0 (wrapNodes cols)))

/-- The weighted rows v_e · y[c_e] of an edge table, one per triple. -/
def weightedEdgeRows (cols : IdxVec) (vals : ValVec) (y : EdgeMat) : FVec Ideal S800000x256 .f32 :=
  mulf (broadcastInDim S800000x256 ![0, 1] bcast_S800000x1_S800000x256_0_1 (broadcastInDim S800000x1 ![0] bcast_S800000_S800000x1_0 vals))
    (Host.gather gather_S400000x256_S800000x1_S800000x256_1_0_n_n_0_1_1256 y
      (broadcastInDim S800000x1 ![0] bcast_S800000_S800000x1_0 (wrapEdges cols)))

/-- Nodes to nodes: the segment sum over 50000 rows of the weighted rows of a node table. -/
def nodesFromNodes (rows cols : IdxVec) (vals : ValVec) (y : NodeMat) : NodeMat :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 rows) (weightedNodeRows cols vals y)

/-- Nodes to edges: the segment sum over 400000 rows of the weighted rows of a node table. -/
def edgesFromNodes (rows cols : IdxVec) (vals : ValVec) (y : NodeMat) : EdgeMat :=
  Host.scatterAdd scatter_S400000x256_S800000x1_S800000x256_1_0_0_1
    (broadcastInDim S400000x256 ![] bcast_S_S400000x256 (constant (F := Ideal) S_ .f32 0x00000000#32))
    (broadcastInDim S800000x1 ![0] bcast_S800000_S800000x1_0 rows) (weightedNodeRows cols vals y)

/-- Edges to nodes: the segment sum over 50000 rows of the weighted rows of an edge table. -/
def nodesFromEdges (rows cols : IdxVec) (vals : ValVec) (y : EdgeMat) : NodeMat :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 rows) (weightedEdgeRows cols vals y)

/-- σ as the host spells it on a node table: 1 / (1 + e^(-v)). -/
def hostSigmaNodes (v : NodeMat) : NodeMat :=
  Host.divf (broadcastInDim S50000x256 ![] bcast_S_S50000x256 (constant (F := Ideal) S_ .f32 0x3F800000#32))
    (addf (broadcastInDim S50000x256 ![] bcast_S_S50000x256 (constant (F := Ideal) S_ .f32 0x3F800000#32)) (Host.exp (Host.negf v)))

/-- σ as the host spells it on an edge table. -/
def hostSigmaEdges (v : EdgeMat) : EdgeMat :=
  Host.divf (broadcastInDim S400000x256 ![] bcast_S_S400000x256 (constant (F := Ideal) S_ .f32 0x3F800000#32))
    (addf (broadcastInDim S400000x256 ![] bcast_S_S400000x256 (constant (F := Ideal) S_ .f32 0x3F800000#32)) (Host.exp (Host.negf v)))

/-- The float pattern 0x3F800000 is the number one. -/
theorem ofBits_one_f32 : Ideal.ofBits .f32 0x3F800000#32 = 1 := by
  simp [Ideal.ofBits, Ideal.ieee, -EReal.coe_mul]; norm_num

/-- One entry: 1 / (1 + e^(-a)) in the host's operations is the logistic function of `a`, on every extended real. -/
theorem sigma_entry (a : EReal) :
    FloatOps.hostDivf (F := Ideal) (φ := .f32) (FloatOps.ofBits (F := Ideal) .f32 0x3F800000#32)
      (FloatOps.addf (F := Ideal) (φ := .f32) (FloatOps.ofBits (F := Ideal) .f32 0x3F800000#32)
        (FloatOps.hostUnary (F := Ideal) (φ := .f32) .exp (FloatOps.hostNegf (F := Ideal) (φ := .f32) a)))
      = FloatOps.logistic (F := Ideal) (φ := .f32) a := by
  show Ideal.div (Ideal.ofBits .f32 0x3F800000#32) (Ideal.ofBits .f32 0x3F800000#32 + Ideal.exp (-a)) = Ideal.div 1 (1 + Ideal.exp (-a))
  rw [ofBits_one_f32]

theorem sigma_nodes_eq (v : NodeMat) : hostSigmaNodes v = logistic (F := Ideal) v := funext fun i => sigma_entry (v i)
theorem sigma_edges_eq (v : EdgeMat) : hostSigmaEdges v = logistic (F := Ideal) v := funext fun i => sigma_entry (v i)

/-- The host's dense product of a node table with a weight matrix is the matrix product. -/
theorem dense_nodes_eq (y : NodeMat) (w : Weight) :
    Host.dotGeneral (F := Ideal) dot_S50000x256_S256x256_S50000x256_1_0_0_1_n_n none y w = matProd y w :=
  dotGeneral_plain_eq _ rfl none _ y w

/-- The host's dense product of an edge table with a weight matrix is the matrix product. -/
theorem dense_edges_eq (y : EdgeMat) (w : Weight) :
    Host.dotGeneral (F := Ideal) dot_S400000x256_S256x256_S400000x256_1_0_0_1_n_n none y w = matProd y w :=
  dotGeneral_plain_eq _ rfl none _ y w

/-- THE RESULT as one function of the arguments, in the order of the programs' parameters:
    x, A's rows, columns and values, B's rows (nodes), columns (edges) and values, W00, W01, W10, W11. -/
def result (x : NodeMat) (aRows aCols : IdxVec) (aVals : ValVec) (bRows bCols : IdxVec) (bVals : ValVec)
    (w00 w01 w10 w11 : Weight) : NodeMat :=
  logistic (F := Ideal)
    (addf (nodesFromNodes aRows aCols aVals (matProd (logistic (F := Ideal) (nodesFromNodes aRows aCols aVals (matProd x w00))) w10))
      (nodesFromEdges bRows bCols bVals (matProd (logistic (F := Ideal) (edgesFromNodes bCols bRows bVals (matProd x w01))) w11)))

end Cert.Bridge

end
-- ==== Proof.Stretches.lean ====
/-
  The kernel program's three stretches of host operations, each read as a function of what it finds.

  Between the pallas calls @main computes the sparse products with host operations: broadcast the values over the 256
  channels, wrap negative column indices, gather the rows, multiply, and scatter-add into a zero table. From ANY contents
  `W` of the buffers, the result buffer of each stretch holds the segment sum (Spec.lean's `nodesFromNodes`,
  `edgesFromNodes`, `nodesFromEdges`) of the index and value vectors and of the dense product it reads — the same operations,
  with the same dimension numbers, as the reference's.
-/
import proofs.«159232_j19061064860111_1_alg».proof.Proof.Patched.KernelIdeal.Launch
import proofs.«159232_j19061064860111_1_alg».proof.Proof.Spec
import Idealize.ShloMosaic.Lib.StableHlo.Run

set_option maxRecDepth 16384

noncomputable section

namespace Cert.KernelIdeal.Stretches

open Idealize.ShloMosaic Idealize.ShloMosaic.TcCoe Idealize.SL.Sem Idealize.ShloMosaic.StableHlo
open Cert.KernelIdeal Cert.KernelIdeal.Gen Cert.KernelIdeal.GenP

variable (W : Valuation τ sig (Elt Ideal))

set_option maxHeartbeats 8000000 in
/-- Level 1, nodes to nodes: A · (x W00) from the first dense product. -/
theorem level1_nodes :
    StableHlo.after (hostOps2 (F := Ideal)) W (Proc.devRef .tc main_v14)
      = Cert.Bridge.nodesFromNodes (W (Proc.devRef .tc main_arg1)) (W (Proc.devRef .tc main_arg2)) (W (Proc.devRef .tc main_arg3)) (W (Proc.devRef .tc main_v0)) := by
  after_results
  rfl

set_option maxHeartbeats 8000000 in
/-- Level 1, nodes to edges: Bᵀ · (x W01) from the second dense product (rows are B's columns, columns B's rows). -/
theorem level1_edges :
    StableHlo.after (hostOps3 (F := Ideal)) W (Proc.devRef .tc main_v28)
      = Cert.Bridge.edgesFromNodes (W (Proc.devRef .tc main_arg5)) (W (Proc.devRef .tc main_arg4)) (W (Proc.devRef .tc main_arg6)) (W (Proc.devRef .tc main_v1)) := by
  after_results
  rfl

set_option maxHeartbeats 16000000 in
/-- Level 2, nodes to nodes: A · (n1 W10). -/
theorem level2_nodes :
    StableHlo.after (hostOps6 (F := Ideal)) W (Proc.devRef .tc main_v44)
      = Cert.Bridge.nodesFromNodes (W (Proc.devRef .tc main_arg1)) (W (Proc.devRef .tc main_arg2)) (W (Proc.devRef .tc main_arg3)) (W (Proc.devRef .tc main_v30)) := by
  after_results
  rfl

set_option maxHeartbeats 16000000 in
/-- Level 2, edges to nodes: B · (e1 W11). -/
theorem level2_edges :
    StableHlo.after (hostOps6 (F := Ideal)) W (Proc.devRef .tc main_v57)
      = Cert.Bridge.nodesFromEdges (W (Proc.devRef .tc main_arg4)) (W (Proc.devRef .tc main_arg5)) (W (Proc.devRef .tc main_arg6)) (W (Proc.devRef .tc main_v31)) := by
  after_results
  rfl

end Cert.KernelIdeal.Stretches

end
-- ==== Proof.Region0.lean ====
/-
  Pallas call 0 of the kernel: a dense product computed row block by row block.

  The grid has 10 points. Point t takes rows 5000·t … 5000·t + 4999 of the 50000-row left operand, the whole 256×256 right
  operand, multiplies them on the matrix unit from a zero accumulator, and writes the 5000×256 product back as rows
  5000·t … 5000·t + 4999 of the output. Over the extended reals a change of float format is the identity and the
  matrix unit's product is the exact sum over the contracted axis, so the block point t writes is the same block of
  the whole product (`block_written`); the 10 blocks tile the 50000 rows (`every_row_written`), hence the output array ends
  holding the matrix product of the two operand arrays as the call finds them (`array_after`).
-/
import proofs.«159232_j19061064860111_1_alg».proof.Proof.Patched.KernelIdeal.Frame
import proofs.«159232_j19061064860111_1_alg».proof.Proof.LibDotGeneralPlain
import Idealize.ShloMosaic.Lib.Pipeline.Value
import Idealize.ShloMosaic.Lib.ValueIdx

set_option maxRecDepth 16384

noncomputable section

open scoped BigOperators

namespace Cert.KernelIdeal.Region0

open Idealize.ShloMosaic Idealize.ShloMosaic.TcCoe Idealize.SL.Sem Idealize.ShloMosaic.ValueIdx
open Cert.KernelIdeal Cert.KernelIdeal.Gen Cert.KernelIdeal.GenP Cert.LibMatmulPlain Cert.LibDotGeneralPlain

variable (V : (c : Dev nD) → (b : Ref sig .tc) → Buf (Elt Ideal) ((c : Thread nD τ).loc b))

theorem zero_offset : (![0, 0] : Fin 2 → Nat) = fun _ => 0 := funext fun a => by fin_cases a <;> rfl

/-- One entry of the block product: the sum over the 256 contracted positions. -/
theorem product_entry (x0 : Vec Ideal S5000x256 .f32) (x1 : Vec Ideal S256x256 .f32) (p : Fin 5000) (q : Fin 256) :
    k0_pay1 x0 x1 (ix2 p q) = ∑ k : Fin 256, x0 (ix2 p k) * x1 (ix2 k q) :=
  matmul_plain_zero_apply dot_S5000x256_S256x256_S5000x256_1_0_0_1_n_n rfl none _ _ p q

/-- The printed index maps over the grid: the left operand's and the output's row block is the point's number, every
    other block index is zero. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the operand arrays. -/
theorem block_written (c : Dev nD) (t : Fin cfg0.N) :
    (dat0 V c).flushed 2 t = ((cfg0.win 2).blk t).view.read (Elt Ideal)
      (matProd (M := 50000) (K := 256) (N := 256) (V c main_arg0) (V c main_arg7)) := by
  show (cfg0.win 2).cut (grid0.coords t) ((dat0 V c).after 2 t) = _
  rw [after0_2]
  unfold out0_2
  rw [View.canon_unit_zero zero_offset]
  simp only [View.ld_unit_zero (S := S5000x256) zero_offset, View.ld_unit_zero (S := S256x256) zero_offset]
  obtain ⟨e0, e1, e2, e3, e4, e5⟩ := block_indices t
  have hN : t.val < 10 := Nat.lt_of_lt_of_eq t.isLt N_0
  funext j
  obtain ⟨p, q, rfl⟩ : ∃ (p : Fin 5000) (q : Fin 256), j = ix2 p q := ⟨j 0, j 1, eq_ix2 j⟩
  have hp : p.val < 5000 := p.isLt
  have hr : t.val * 5000 + p.val < 50000 := by omega
  have hout : ((cfg0.win 2).blk t).view.emb (ix2 p q) = ix2 (⟨t.val * 5000 + p.val, hr⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 256 + 1 * q.val = q.val; omega
  show k0_pay1 (iblk0 V c 0 t) (iblk0 V c 1 t) (ix2 p q)
    = matProd (M := 50000) (K := 256) (N := 256) (V c main_arg0) (V c main_arg7) (((cfg0.win 2).blk t).view.emb (ix2 p q))
  rw [hout, matProd_apply]
  refine (product_entry (iblk0 V c 0 t) (iblk0 V c 1 t) p q).trans ?_
  refine Finset.sum_congr rfl fun k _ => ?_
  have hleft : ((cfg0.win 0).blk t).view.emb (ix2 p k) = ix2 (⟨t.val * 5000 + p.val, hr⟩ : Fin 50000) k := by
    funext a; apply Fin.ext
    match a with
    | ⟨0, _⟩ => show win0_0.index t (0 : Fin 2) * 5000 + 1 * p.val = t.val * 5000 + p.val; omega
    | ⟨1, _⟩ => show win0_0.index t (1 : Fin 2) * 256 + 1 * k.val = k.val; omega
  have hright : ((cfg0.win 1).blk t).view.emb (ix2 k q) = ix2 k q := by
    funext a; apply Fin.ext
    match a with
    | ⟨0, _⟩ => show win0_1.index t (0 : Fin 2) * 256 + 1 * k.val = k.val; omega
    | ⟨1, _⟩ => show win0_1.index t (1 : Fin 2) * 256 + 1 * q.val = q.val; omega
  have eleft : iblk0 V c 0 t (ix2 p k) = V c main_arg0 (ix2 (⟨t.val * 5000 + p.val, hr⟩ : Fin 50000) k) := by
    show V c main_arg0 (((cfg0.win 0).blk t).view.emb (ix2 p k)) = _
    rw [hleft]
  have eright : iblk0 V c 1 t (ix2 k q) = V c main_arg7 (ix2 k q) := by
    show V c main_arg7 (((cfg0.win 1).blk t).view.emb (ix2 k q)) = _
    rw [hright]
  rw [eleft, eright]

/-- An index of the output array lies in point `t`'s block iff each coordinate lies in the block's range on its axis. -/
theorem in_block_iff (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v0).slice (win0_2.rect t)).set ↔ _
  rw [View.set_slice_whole, Rect.mem_set_unit]
  exact Iff.rfl

/-- Row r of the output lies in the block of point r / 5000. -/
theorem every_row_written (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hlt : (i 0).val / 5000 < cfg0.N := by rw [show cfg0.N = 10 from N_0]; omega
  refine ⟨⟨(i 0).val / 5000, hlt⟩, flush0_2 _, ?_⟩
  obtain ⟨-, -, -, -, e4, e5⟩ := block_indices ⟨(i 0).val / 5000, hlt⟩
  rw [in_block_iff]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 256 ≤ (i 1).val ∧ (i 1).val < win0_2.index ⟨(i 0).val / 5000, hlt⟩ (1 : Fin 2) * 256 + 256
    rw [e5]; omega

/-- THE OUTPUT ARRAY after the call: the matrix product of the two operand arrays as the call finds them. -/
theorem array_after (c : Dev nD) :
    (dat0 V c).arrAt 2 cfg0.N = matProd (M := 50000) (K := 256) (N := 256) (V c main_arg0) (V c main_arg7) :=
  (dat0 V c).arrAt_eq_of_cover 2 _ (fun t _ => block_written V c t) every_row_written

end Cert.KernelIdeal.Region0

end
-- ==== Proof.Region1.lean ====
/-
  Pallas call 1 of the kernel: a dense product computed row block by row block.

  The grid has 10 points. Point t takes rows 5000·t … 5000·t + 4999 of the 50000-row left operand, the whole 256×256 right
  operand, multiplies them on the matrix unit from a zero accumulator, and writes the 5000×256 product back as rows
  5000·t … 5000·t + 4999 of the output. Over the extended reals a change of float format is the identity and the
  matrix unit's product is the exact sum over the contracted axis, so the block point t writes is the same block of
  the whole product (`block_written`); the 10 blocks tile the 50000 rows (`every_row_written`), hence the output array ends
  holding the matrix product of the two operand arrays as the call finds them (`array_after`).
-/
import proofs.«159232_j19061064860111_1_alg».proof.Proof.Patched.KernelIdeal.Frame
import proofs.«159232_j19061064860111_1_alg».proof.Proof.LibDotGeneralPlain
import Idealize.ShloMosaic.Lib.Pipeline.Value
import Idealize.ShloMosaic.Lib.ValueIdx

set_option maxRecDepth 16384

noncomputable section

open scoped BigOperators

namespace Cert.KernelIdeal.Region1

open Idealize.ShloMosaic Idealize.ShloMosaic.TcCoe Idealize.SL.Sem Idealize.ShloMosaic.ValueIdx
open Cert.KernelIdeal Cert.KernelIdeal.Gen Cert.KernelIdeal.GenP Cert.LibMatmulPlain Cert.LibDotGeneralPlain

variable (V : (c : Dev nD) → (b : Ref sig .tc) → Buf (Elt Ideal) ((c : Thread nD τ).loc b))

theorem zero_offset : (![0, 0] : Fin 2 → Nat) = fun _ => 0 := funext fun a => by fin_cases a <;> rfl

/-- One entry of the block product: the sum over the 256 contracted positions. -/
theorem product_entry (x0 : Vec Ideal S5000x256 .f32) (x1 : Vec Ideal S256x256 .f32) (p : Fin 5000) (q : Fin 256) :
    k1_pay1 x0 x1 (ix2 p q) = ∑ k : Fin 256, x0 (ix2 p k) * x1 (ix2 k q) :=
  matmul_plain_zero_apply dot_S5000x256_S256x256_S5000x256_1_0_0_1_n_n rfl none _ _ p q

/-- The printed index maps over the grid: the left operand's and the output's row block is the point's number, every
    other block index is zero. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product of the operand arrays. -/
theorem block_written (c : Dev nD) (t : Fin cfg1.N) :
    (dat1 V c).flushed 2 t = ((cfg1.win 2).blk t).view.read (Elt Ideal)
      (matProd (M := 50000) (K := 256) (N := 256) (V c main_arg0) (V c main_arg8)) := by
  show (cfg1.win 2).cut (grid1.coords t) ((dat1 V c).after 2 t) = _
  rw [after1_2]
  unfold out1_2
  rw [View.canon_unit_zero zero_offset]
  simp only [View.ld_unit_zero (S := S5000x256) zero_offset, View.ld_unit_zero (S := S256x256) zero_offset]
  obtain ⟨e0, e1, e2, e3, e4, e5⟩ := block_indices t
  have hN : t.val < 10 := Nat.lt_of_lt_of_eq t.isLt N_1
  funext j
  obtain ⟨p, q, rfl⟩ : ∃ (p : Fin 5000) (q : Fin 256), j = ix2 p q := ⟨j 0, j 1, eq_ix2 j⟩
  have hp : p.val < 5000 := p.isLt
  have hr : t.val * 5000 + p.val < 50000 := by omega
  have hout : ((cfg1.win 2).blk t).view.emb (ix2 p q) = ix2 (⟨t.val * 5000 + p.val, hr⟩ : Fin 50000) q := by
    funext a; apply Fin.ext
    match a with
    | ⟨0, _⟩ => show win1_2.index t (0 : Fin 2) * 5000 + 1 * p.val = t.val * 5000 + p.val; omega
    | ⟨1, _⟩ => show win1_2.index t (1 : Fin 2) * 256 + 1 * q.val = q.val; omega
  show k1_pay1 (iblk1 V c 0 t) (iblk1 V c 1 t) (ix2 p q)
    = matProd (M := 50000) (K := 256) (N := 256) (V c main_arg0) (V c main_arg8) (((cfg1.win 2).blk t).view.emb (ix2 p q))
  rw [hout, matProd_apply]
  refine (product_entry (iblk1 V c 0 t) (iblk1 V c 1 t) p q).trans ?_
  refine Finset.sum_congr rfl fun k _ => ?_
  have hleft : ((cfg1.win 0).blk t).view.emb (ix2 p k) = ix2 (⟨t.val * 5000 + p.val, hr⟩ : Fin 50000) k := by
    funext a; apply Fin.ext
    match a with
    | ⟨0, _⟩ => show win1_0.index t (0 : Fin 2) * 5000 + 1 * p.val = t.val * 5000 + p.val; omega
    | ⟨1, _⟩ => show win1_0.index t (1 : Fin 2) * 256 + 1 * k.val = k.val; omega
  have hright : ((cfg1.win 1).blk t).view.emb (ix2 k q) = ix2 k q := by
    funext a; apply Fin.ext
    match a with
    | ⟨0, _⟩ => show win1_1.index t (0 : Fin 2) * 256 + 1 * k.val = k.val; omega
    | ⟨1, _⟩ => show win1_1.index t (1 : Fin 2) * 256 + 1 * q.val = q.val; omega
  have eleft : iblk1 V c 0 t (ix2 p k) = V c main_arg0 (ix2 (⟨t.val * 5000 + p.val, hr⟩ : Fin 50000) k) := by
    show V c main_arg0 (((cfg1.win 0).blk t).view.emb (ix2 p k)) = _
    rw [hleft]
  have eright : iblk1 V c 1 t (ix2 k q) = V c main_arg8 (ix2 k q) := by
    show V c main_arg8 (((cfg1.win 1).blk t).view.emb (ix2 k q)) = _
    rw [hright]
  rw [eleft, eright]

/-- An index of the output array lies in point `t`'s block iff each coordinate lies in the block's range on its axis. -/
theorem in_block_iff (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v1).slice (win1_2.rect t)).set ↔ _
  rw [View.set_slice_whole, Rect.mem_set_unit]
  exact Iff.rfl

/-- Row r of the output lies in the block of point r / 5000. -/
theorem every_row_written (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hlt : (i 0).val / 5000 < cfg1.N := by rw [show cfg1.N = 10 from N_1]; omega
  refine ⟨⟨(i 0).val / 5000, hlt⟩, flush1_2 _, ?_⟩
  obtain ⟨-, -, -, -, e4, e5⟩ := block_indices ⟨(i 0).val / 5000, hlt⟩
  rw [in_block_iff]
  intro a
  match a with
  | ⟨0, _⟩ =>
    show win1_2.index ⟨(i 0).val / 5000, hlt⟩ (0 : Fin 2) * 5000 ≤ (i 0).val ∧ (i 0).val < win1_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, hlt⟩ (1 : Fin 2) * 256 ≤ (i 1).val ∧ (i 1).val < win1_2.index ⟨(i 0).val / 5000, hlt⟩ (1 : Fin 2) * 256 + 256
    rw [e5]; omega

/-- THE OUTPUT ARRAY after the call: the matrix product of the two operand arrays as the call finds them. -/
theorem array_after (c : Dev nD) :
    (dat1 V c).arrAt 2 cfg1.N = matProd (M := 50000) (K := 256) (N := 256) (V c main_arg0) (V c main_arg8) :=
  (dat1 V c).arrAt_eq_of_cover 2 _ (fun t _ => block_written V c t) every_row_written

end Cert.KernelIdeal.Region1

end
-- ==== Proof.Region2.lean ====
/-
  Pallas call 2 of the kernel: the logistic function applied entrywise, row block by row block.

  The grid has 10 points. Point t takes rows 5000·t … 5000·t + 4999 of the 50000-row input, applies σ(v) = 1 / (1 + e^(-v)) to
  every entry and writes the block back at the same rows of the output. The operation is entrywise, so the block point t
  writes is the same block of σ of the whole input array (`block_written`); the 10 blocks tile the 50000 rows
  (`every_row_written`), hence the output array ends holding σ of the input array as the call finds it (`array_after`).
-/
import proofs.«159232_j19061064860111_1_alg».proof.Proof.Patched.KernelIdeal.Frame
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.SL.Sem Idealize.ShloMosaic.ValueIdx
open Cert.KernelIdeal Cert.KernelIdeal.Gen Cert.KernelIdeal.GenP

variable (V : (c : Dev nD) → (b : Ref sig .tc) → Buf (Elt Ideal) ((c : Thread nD τ).loc b))

theorem zero_offset : (![0, 0] : Fin 2 → Nat) = fun _ => 0 := funext fun a => by fin_cases a <;> rfl

/-- The body's arithmetic on a block: σ of the block (re-laying a block out in its own shape changes nothing). -/
theorem sigma_block (x0 : Vec Ideal S5000x256 .f32) : k2_pay1 x0 = logistic (F := Ideal) x0 := by
  show logistic (F := Ideal) (shapeCast S5000x256 x0 shapeCasts_S5000x256_S5000x256) = _
  rw [shapeCast_self]

/-- The printed index maps over the grid: both windows' row block is the point's number, the column block is zero. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- What point `t` writes back is block `t` of σ of the whole input array. -/
theorem block_written (c : Dev nD) (t : Fin cfg2.N) :
    (dat2 V c).flushed 1 t = ((cfg2.win 1).blk t).view.read (Elt Ideal)
      (logistic (F := Ideal) (s := S50000x256) (φ := .f32) (V c main_v14)) := by
  show (cfg2.win 1).cut (grid2.coords t) ((dat2 V c).after 1 t) = _
  rw [after2_1]
  unfold out2_1
  rw [View.canon_unit_zero zero_offset]
  simp only [View.ld_unit_zero (S := S5000x256) zero_offset]
  rw [sigma_block]
  obtain ⟨e0, e1, e2, e3⟩ := block_indices t
  funext j
  show FloatOps.logistic (F := Ideal) (φ := .f32) (V c main_v14 (((cfg2.win 0).blk t).view.emb j)) = FloatOps.logistic (F := Ideal) (φ := .f32) (V c main_v14 (((cfg2.win 1).blk t).view.emb j))
  have h0 : ((cfg2.win 0).blk t).view.emb j = ((cfg2.win 1).blk t).view.emb j := by
    funext a; apply Fin.ext
    match a with
    | ⟨0, _⟩ => show win2_0.index t (0 : Fin 2) * 5000 + 1 * (j 0).val = win2_1.index t (0 : Fin 2) * 5000 + 1 * (j 0).val; omega
    | ⟨1, _⟩ => show win2_0.index t (1 : Fin 2) * 256 + 1 * (j 1).val = win2_1.index t (1 : Fin 2) * 256 + 1 * (j 1).val; omega
  rw [h0]

/-- An index of the output array lies in point `t`'s block iff each coordinate lies in the block's range on its axis. -/
theorem in_block_iff (t : Fin cfg2.N) (i : S50000x256.Idx) :
    i ∈ ((cfg2.win 1).blk t).view.set ↔ ∀ a : Fin 2, win2_1.index t a * S5000x256.size a ≤ (i a).val ∧ (i a).val < win2_1.index t a * S5000x256.size a + S5000x256.size a := by
  show i ∈ ((View.whole main_v15).slice (win2_1.rect t)).set ↔ _
  rw [View.set_slice_whole, Rect.mem_set_unit]
  exact Iff.rfl

/-- Row r of the output lies in the block of point r / 5000. -/
theorem every_row_written (i : S50000x256.Idx) :
    ∃ t : Fin cfg2.N, (cfg2.win 1).flush t = true ∧ i ∈ ((cfg2.win 1).blk t).view.set := by
  have hi0 : (i 0).val < 50000 := (i 0).isLt
  have hi1 : (i 1).val < 256 := (i 1).isLt
  have hlt : (i 0).val / 5000 < cfg2.N := by rw [show cfg2.N = 10 from N_2]; omega
  refine ⟨⟨(i 0).val / 5000, hlt⟩, flush2_1 _, ?_⟩
  obtain ⟨-, -, e2, e3⟩ := block_indices ⟨(i 0).val / 5000, hlt⟩
  rw [in_block_iff]
  intro a
  match a with
  | ⟨0, _⟩ =>
    show win2_1.index ⟨(i 0).val / 5000, hlt⟩ (0 : Fin 2) * 5000 ≤ (i 0).val ∧ (i 0).val < win2_1.index ⟨(i 0).val / 5000, hlt⟩ (0 : Fin 2) * 5000 + 5000
    rw [e2]; show (i 0).val / 5000 * 5000 ≤ (i 0).val ∧ (i 0).val < (i 0).val / 5000 * 5000 + 5000; omega
  | ⟨1, _⟩ =>
    show win2_1.index ⟨(i 0).val / 5000, hlt⟩ (1 : Fin 2) * 256 ≤ (i 1).val ∧ (i 1).val < win2_1.index ⟨(i 0).val / 5000, hlt⟩ (1 : Fin 2) * 256 + 256
    rw [e3]; omega

/-- THE OUTPUT ARRAY after the call: σ of the input array as the call finds it. -/
theorem array_after (c : Dev nD) :
    (dat2 V c).arrAt 1 cfg2.N = logistic (F := Ideal) (s := S50000x256) (φ := .f32) (V c main_v14) :=
  (dat2 V c).arrAt_eq_of_cover 1 _ (fun t _ => block_written V c t) every_row_written

end Cert.KernelIdeal.Region2

end
-- ==== Proof.Region3.lean ====
/-
  Pallas call 3 of the kernel: the logistic function applied entrywise, row block by row block.

  The grid has 80 points. Point t takes rows 5000·t … 5000·t + 4999 of the 400000-row input, applies σ(v) = 1 / (1 + e^(-v)) to
  every entry and writes the block back at the same rows of the output. The operation is entrywise, so the block point t
  writes is the same block of σ of the whole input array (`block_written`); the 80 blocks tile the 400000 rows
  (`every_row_written`), hence the output array ends holding σ of the input array as the call finds it (`array_after`).
-/
import proofs.«159232_j19061064860111_1_alg».proof.Proof.Patched.KernelIdeal.Frame
import Idealize.ShloMosaic.Lib.Pipeline.Value
import Idealize.ShloMosaic.Lib.ValueIdx

set_option maxRecDepth 16384

noncomputable section

namespace Cert.KernelIdeal.Region3

open Idealize.ShloMosaic Idealize.ShloMosaic.TcCoe Idealize.SL.Sem Idealize.ShloMosaic.ValueIdx
open Cert.KernelIdeal Cert.KernelIdeal.Gen Cert.KernelIdeal.GenP

variable (V : (c : Dev nD) → (b : Ref sig .tc) → Buf (Elt Ideal) ((c : Thread nD τ).loc b))

theorem zero_offset : (![0, 0] : Fin 2 → Nat) = fun _ => 0 := funext fun a => by fin_cases a <;> rfl

/-- The body's arithmetic on a block: σ of the block (re-laying a block out in its own shape changes nothing). -/
theorem sigma_block (x0 : Vec Ideal S5000x256 .f32) : k3_pay1 x0 = logistic (F := Ideal) x0 := by
  show logistic (F := Ideal) (shapeCast S5000x256 x0 shapeCasts_S5000x256_S5000x256) = _
  rw [shapeCast_self]

/-- The printed index maps over the grid: both windows' row block is the point's number, the column block is zero. -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- What point `t` writes back is block `t` of σ of the whole input array. -/
theorem block_written (c : Dev nD) (t : Fin cfg3.N) :
    (dat3 V c).flushed 1 t = ((cfg3.win 1).blk t).view.read (Elt Ideal)
      (logistic (F := Ideal) (s := S400000x256) (φ := .f32) (V c main_v28)) := by
  show (cfg3.win 1).cut (grid3.coords t) ((dat3 V c).after 1 t) = _
  rw [after3_1]
  unfold out3_1
  rw [View.canon_unit_zero zero_offset]
  simp only [View.ld_unit_zero (S := S5000x256) zero_offset]
  rw [sigma_block]
  obtain ⟨e0, e1, e2, e3⟩ := block_indices t
  funext j
  show FloatOps.logistic (F := Ideal) (φ := .f32) (V c main_v28 (((cfg3.win 0).blk t).view.emb j)) = FloatOps.logistic (F := Ideal) (φ := .f32) (V c main_v28 (((cfg3.win 1).blk t).view.emb j))
  have h0 : ((cfg3.win 0).blk t).view.emb j = ((cfg3.win 1).blk t).view.emb j := by
    funext a; apply Fin.ext
    match a with
    | ⟨0, _⟩ => show win3_0.index t (0 : Fin 2) * 5000 + 1 * (j 0).val = win3_1.index t (0 : Fin 2) * 5000 + 1 * (j 0).val; omega
    | ⟨1, _⟩ => show win3_0.index t (1 : Fin 2) * 256 + 1 * (j 1).val = win3_1.index t (1 : Fin 2) * 256 + 1 * (j 1).val; omega
  rw [h0]

/-- An index of the output array lies in point `t`'s block iff each coordinate lies in the block's range on its axis. -/
theorem in_block_iff (t : Fin cfg3.N) (i : S400000x256.Idx) :
    i ∈ ((cfg3.win 1).blk t).view.set ↔ ∀ a : Fin 2, win3_1.index t a * S5000x256.size a ≤ (i a).val ∧ (i a).val < win3_1.index t a * S5000x256.size a + S5000x256.size a := by
  show i ∈ ((View.whole main_v29).slice (win3_1.rect t)).set ↔ _
  rw [View.set_slice_whole, Rect.mem_set_unit]
  exact Iff.rfl

/-- Row r of the output lies in the block of point r / 5000. -/
theorem every_row_written (i : S400000x256.Idx) :
    ∃ t : Fin cfg3.N, (cfg3.win 1).flush t = true ∧ i ∈ ((cfg3.win 1).blk t).view.set := by
  have hi0 : (i 0).val < 400000 := (i 0).isLt
  have hi1 : (i 1).val < 256 := (i 1).isLt
  have hlt : (i 0).val / 5000 < cfg3.N := by rw [show cfg3.N = 80 from N_3]; omega
  refine ⟨⟨(i 0).val / 5000, hlt⟩, flush3_1 _, ?_⟩
  obtain ⟨-, -, e2, e3⟩ := block_indices ⟨(i 0).val / 5000, hlt⟩
  rw [in_block_iff]
  intro a
  match a with
  | ⟨0, _⟩ =>
    show win3_1.index ⟨(i 0).val / 5000, hlt⟩ (0 : Fin 2) * 5000 ≤ (i 0).val ∧ (i 0).val < win3_1.index ⟨(i 0).val / 5000, hlt⟩ (0 : Fin 2) * 5000 + 5000
    rw [e2]; show (i 0).val / 5000 * 5000 ≤ (i 0).val ∧ (i 0).val < (i 0).val / 5000 * 5000 + 5000; omega
  | ⟨1, _⟩ =>
    show win3_1.index ⟨(i 0).val / 5000, hlt⟩ (1 : Fin 2) * 256 ≤ (i 1).val ∧ (i 1).val < win3_1.index ⟨(i 0).val / 5000, hlt⟩ (1 : Fin 2) * 256 + 256
    rw [e3]; omega

/-- THE OUTPUT ARRAY after the call: σ of the input array as the call finds it. -/
theorem array_after (c : Dev nD) :
    (dat3 V c).arrAt 1 cfg3.N = logistic (F := Ideal) (s := S400000x256) (φ := .f32) (V c main_v28) :=
  (dat3 V c).arrAt_eq_of_cover 1 _ (fun t _ => block_written V c t) every_row_written

end Cert.KernelIdeal.Region3

end
-- ==== Proof.Region4.lean ====
/-
  Pallas call 4 of the kernel: a dense product computed row block by row block.

  The grid has 10 points. Point t takes rows 5000·t … 5000·t + 4999 of the 50000-row left operand, the whole 256×256 right
  operand, multiplies them on the matrix unit from a zero accumulator, and writes the 5000×256 product back as rows
  5000·t … 5000·t + 4999 of the output. Over the extended reals a change of float format is the identity and the
  matrix unit's product is the exact sum over the contracted axis, so the block point t writes is the same block of
  the whole product (`block_written`); the 10 blocks tile the 50000 rows (`every_row_written`), hence the output array ends
  holding the matrix product of the two operand arrays as the call finds them (`array_after`).
-/
import proofs.«159232_j19061064860111_1_alg».proof.Proof.Patched.KernelIdeal.Frame
import proofs.«159232_j19061064860111_1_alg».proof.Proof.LibDotGeneralPlain
import Idealize.ShloMosaic.Lib.Pipeline.Value
import Idealize.ShloMosaic.Lib.ValueIdx

set_option maxRecDepth 16384

noncomputable section

open scoped BigOperators

namespace Cert.KernelIdeal.Region4

open Idealize.ShloMosaic Idealize.ShloMosaic.TcCoe Idealize.SL.Sem Idealize.ShloMosaic.ValueIdx
open Cert.KernelIdeal Cert.KernelIdeal.Gen Cert.KernelIdeal.GenP Cert.LibMatmulPlain Cert.LibDotGeneralPlain

variable (V : (c : Dev nD) → (b : Ref sig .tc) → Buf (Elt Ideal) ((c : Thread nD τ).loc b))

theorem zero_offset : (![0, 0] : Fin 2 → Nat) = fun _ => 0 := funext fun a => by fin_cases a <;> rfl

/-- One entry of the block product: the sum over the 256 contracted positions. -/
theorem product_entry (x0 : Vec Ideal S5000x256 .f32) (x1 : Vec Ideal S256x256 .f32) (p : Fin 5000) (q : Fin 256) :
    k4_pay1 x0 x1 (ix2 p q) = ∑ k : Fin 256, x0 (ix2 p k) * x1 (ix2 k q) := by
  show FloatOps.matmul dot_S5000x256_S256x256_S5000x256_1_0_0_1_n_n none
      (truncf .bf16 (shapeCast S5000x256 x0 shapeCasts_S5000x256_S5000x256) bitsLt_bf16_f32) (truncf .bf16 x1 bitsLt_bf16_f32)
      (constant (F := Ideal) S5000x256 .f32 0x00000000#32) (ix2 p q) = _
  rw [shapeCast_self]
  exact matmul_plain_zero_apply dot_S5000x256_S256x256_S5000x256_1_0_0_1_n_n rfl none _ _ p q

/-- The printed index maps over the grid: the left operand's and the output's row block is the point's number, every
    other block index is zero. -/
theorem block_indices : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the whole product of the operand arrays. -/
theorem block_written (c : Dev nD) (t : Fin cfg4.N) :
    (dat4 V c).flushed 2 t = ((cfg4.win 2).blk t).view.read (Elt Ideal)
      (matProd (M := 50000) (K := 256) (N := 256) (V c main_v15) (V c main_arg9)) := by
  show (cfg4.win 2).cut (grid4.coords t) ((dat4 V c).after 2 t) = _
  rw [after4_2]
  unfold out4_2
  rw [View.canon_unit_zero zero_offset]
  simp only [View.ld_unit_zero (S := S5000x256) zero_offset, View.ld_unit_zero (S := S256x256) zero_offset]
  obtain ⟨e0, e1, e2, e3, e4, e5⟩ := block_indices t
  have hN : t.val < 10 := Nat.lt_of_lt_of_eq t.isLt N_4
  funext j
  obtain ⟨p, q, rfl⟩ : ∃ (p : Fin 5000) (q : Fin 256), j = ix2 p q := ⟨j 0, j 1, eq_ix2 j⟩
  have hp : p.val < 5000 := p.isLt
  have hr : t.val * 5000 + p.val < 50000 := by omega
  have hout : ((cfg4.win 2).blk t).view.emb (ix2 p q) = ix2 (⟨t.val * 5000 + p.val, hr⟩ : Fin 50000) q := by
    funext a; apply Fin.ext
    match a with
    | ⟨0, _⟩ => show win4_2.index t (0 : Fin 2) * 5000 + 1 * p.val = t.val * 5000 + p.val; omega
    | ⟨1, _⟩ => show win4_2.index t (1 : Fin 2) * 256 + 1 * q.val = q.val; omega
  show k4_pay1 (iblk4 V c 0 t) (iblk4 V c 1 t) (ix2 p q)
    = matProd (M := 50000) (K := 256) (N := 256) (V c main_v15) (V c main_arg9) (((cfg4.win 2).blk t).view.emb (ix2 p q))
  rw [hout, matProd_apply]
  refine (product_entry (iblk4 V c 0 t) (iblk4 V c 1 t) p q).trans ?_
  refine Finset.sum_congr rfl fun k _ => ?_
  have hleft : ((cfg4.win 0).blk t).view.emb (ix2 p k) = ix2 (⟨t.val * 5000 + p.val, hr⟩ : Fin 50000) k := by
    funext a; apply Fin.ext
    match a with
    | ⟨0, _⟩ => show win4_0.index t (0 : Fin 2) * 5000 + 1 * p.val = t.val * 5000 + p.val; omega
    | ⟨1, _⟩ => show win4_0.index t (1 : Fin 2) * 256 + 1 * k.val = k.val; omega
  have hright : ((cfg4.win 1).blk t).view.emb (ix2 k q) = ix2 k q := by
    funext a; apply Fin.ext
    match a with
    | ⟨0, _⟩ => show win4_1.index t (0 : Fin 2) * 256 + 1 * k.val = k.val; omega
    | ⟨1, _⟩ => show win4_1.index t (1 : Fin 2) * 256 + 1 * q.val = q.val; omega
  have eleft : iblk4 V c 0 t (ix2 p k) = V c main_v15 (ix2 (⟨t.val * 5000 + p.val, hr⟩ : Fin 50000) k) := by
    show V c main_v15 (((cfg4.win 0).blk t).view.emb (ix2 p k)) = _
    rw [hleft]
  have eright : iblk4 V c 1 t (ix2 k q) = V c main_arg9 (ix2 k q) := by
    show V c main_arg9 (((cfg4.win 1).blk t).view.emb (ix2 k q)) = _
    rw [hright]
  rw [eleft, eright]

/-- An index of the output array lies in point `t`'s block iff each coordinate lies in the block's range on its axis. -/
theorem in_block_iff (t : Fin cfg4.N) (i : S50000x256.Idx) :
    i ∈ ((cfg4.win 2).blk t).view.set ↔ ∀ a : Fin 2, win4_2.index t a * S5000x256.size a ≤ (i a).val ∧ (i a).val < win4_2.index t a * S5000x256.size a + S5000x256.size a := by
  show i ∈ ((View.whole main_v30).slice (win4_2.rect t)).set ↔ _
  rw [View.set_slice_whole, Rect.mem_set_unit]
  exact Iff.rfl

/-- Row r of the output lies in the block of point r / 5000. -/
theorem every_row_written (i : S50000x256.Idx) :
    ∃ t : Fin cfg4.N, (cfg4.win 2).flush t = true ∧ i ∈ ((cfg4.win 2).blk t).view.set := by
  have hi0 : (i 0).val < 50000 := (i 0).isLt
  have hi1 : (i 1).val < 256 := (i 1).isLt
  have hlt : (i 0).val / 5000 < cfg4.N := by rw [show cfg4.N = 10 from N_4]; omega
  refine ⟨⟨(i 0).val / 5000, hlt⟩, flush4_2 _, ?_⟩
  obtain ⟨-, -, -, -, e4, e5⟩ := block_indices ⟨(i 0).val / 5000, hlt⟩
  rw [in_block_iff]
  intro a
  match a with
  | ⟨0, _⟩ =>
    show win4_2.index ⟨(i 0).val / 5000, hlt⟩ (0 : Fin 2) * 5000 ≤ (i 0).val ∧ (i 0).val < win4_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, hlt⟩ (1 : Fin 2) * 256 ≤ (i 1).val ∧ (i 1).val < win4_2.index ⟨(i 0).val / 5000, hlt⟩ (1 : Fin 2) * 256 + 256
    rw [e5]; omega

/-- THE OUTPUT ARRAY after the call: the matrix product of the two operand arrays as the call finds them. -/
theorem array_after (c : Dev nD) :
    (dat4 V c).arrAt 2 cfg4.N = matProd (M := 50000) (K := 256) (N := 256) (V c main_v15) (V c main_arg9) :=
  (dat4 V c).arrAt_eq_of_cover 2 _ (fun t _ => block_written V c t) every_row_written

end Cert.KernelIdeal.Region4

end
-- ==== Proof.Region5.lean ====
/-
  Pallas call 5 of the kernel: a dense product computed row block by row block.

  The grid has 80 points. Point t takes rows 5000·t … 5000·t + 4999 of the 400000-row left operand, the whole 256×256 right
  operand, multiplies them on the matrix unit from a zero accumulator, and writes the 5000×256 product back as rows
  5000·t … 5000·t + 4999 of the output. Over the extended reals a change of float format is the identity and the
  matrix unit's product is the exact sum over the contracted axis, so the block point t writes is the same block of
  the whole product (`block_written`); the 80 blocks tile the 400000 rows (`every_row_written`), hence the output array ends
  holding the matrix product of the two operand arrays as the call finds them (`array_after`).
-/
import proofs.«159232_j19061064860111_1_alg».proof.Proof.Patched.KernelIdeal.Frame
import proofs.«159232_j19061064860111_1_alg».proof.Proof.LibDotGeneralPlain
import Idealize.ShloMosaic.Lib.Pipeline.Value
import Idealize.ShloMosaic.Lib.ValueIdx

set_option maxRecDepth 16384

noncomputable section

open scoped BigOperators

namespace Cert.KernelIdeal.Region5

open Idealize.ShloMosaic Idealize.ShloMosaic.TcCoe Idealize.SL.Sem Idealize.ShloMosaic.ValueIdx
open Cert.KernelIdeal Cert.KernelIdeal.Gen Cert.KernelIdeal.GenP Cert.LibMatmulPlain Cert.LibDotGeneralPlain

variable (V : (c : Dev nD) → (b : Ref sig .tc) → Buf (Elt Ideal) ((c : Thread nD τ).loc b))

theorem zero_offset : (![0, 0] : Fin 2 → Nat) = fun _ => 0 := funext fun a => by fin_cases a <;> rfl

/-- One entry of the block product: the sum over the 256 contracted positions. -/
theorem product_entry (x0 : Vec Ideal S5000x256 .f32) (x1 : Vec Ideal S256x256 .f32) (p : Fin 5000) (q : Fin 256) :
    k5_pay1 x0 x1 (ix2 p q) = ∑ k : Fin 256, x0 (ix2 p k) * x1 (ix2 k q) := by
  show FloatOps.matmul dot_S5000x256_S256x256_S5000x256_1_0_0_1_n_n none
      (truncf .bf16 (shapeCast S5000x256 x0 shapeCasts_S5000x256_S5000x256) bitsLt_bf16_f32) (truncf .bf16 x1 bitsLt_bf16_f32)
      (constant (F := Ideal) S5000x256 .f32 0x00000000#32) (ix2 p q) = _
  rw [shapeCast_self]
  exact matmul_plain_zero_apply dot_S5000x256_S256x256_S5000x256_1_0_0_1_n_n rfl none _ _ p q

/-- The printed index maps over the grid: the left operand's and the output's row block is the point's number, every
    other block index is zero. -/
theorem block_indices : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the whole product of the operand arrays. -/
theorem block_written (c : Dev nD) (t : Fin cfg5.N) :
    (dat5 V c).flushed 2 t = ((cfg5.win 2).blk t).view.read (Elt Ideal)
      (matProd (M := 400000) (K := 256) (N := 256) (V c main_v29) (V c main_arg10)) := by
  show (cfg5.win 2).cut (grid5.coords t) ((dat5 V c).after 2 t) = _
  rw [after5_2]
  unfold out5_2
  rw [View.canon_unit_zero zero_offset]
  simp only [View.ld_unit_zero (S := S5000x256) zero_offset, View.ld_unit_zero (S := S256x256) zero_offset]
  obtain ⟨e0, e1, e2, e3, e4, e5⟩ := block_indices t
  have hN : t.val < 80 := Nat.lt_of_lt_of_eq t.isLt N_5
  funext j
  obtain ⟨p, q, rfl⟩ : ∃ (p : Fin 5000) (q : Fin 256), j = ix2 p q := ⟨j 0, j 1, eq_ix2 j⟩
  have hp : p.val < 5000 := p.isLt
  have hr : t.val * 5000 + p.val < 400000 := by omega
  have hout : ((cfg5.win 2).blk t).view.emb (ix2 p q) = ix2 (⟨t.val * 5000 + p.val, hr⟩ : Fin 400000) q := by
    funext a; apply Fin.ext
    match a with
    | ⟨0, _⟩ => show win5_2.index t (0 : Fin 2) * 5000 + 1 * p.val = t.val * 5000 + p.val; omega
    | ⟨1, _⟩ => show win5_2.index t (1 : Fin 2) * 256 + 1 * q.val = q.val; omega
  show k5_pay1 (iblk5 V c 0 t) (iblk5 V c 1 t) (ix2 p q)
    = matProd (M := 400000) (K := 256) (N := 256) (V c main_v29) (V c main_arg10) (((cfg5.win 2).blk t).view.emb (ix2 p q))
  rw [hout, matProd_apply]
  refine (product_entry (iblk5 V c 0 t) (iblk5 V c 1 t) p q).trans ?_
  refine Finset.sum_congr rfl fun k _ => ?_
  have hleft : ((cfg5.win 0).blk t).view.emb (ix2 p k) = ix2 (⟨t.val * 5000 + p.val, hr⟩ : Fin 400000) k := by
    funext a; apply Fin.ext
    match a with
    | ⟨0, _⟩ => show win5_0.index t (0 : Fin 2) * 5000 + 1 * p.val = t.val * 5000 + p.val; omega
    | ⟨1, _⟩ => show win5_0.index t (1 : Fin 2) * 256 + 1 * k.val = k.val; omega
  have hright : ((cfg5.win 1).blk t).view.emb (ix2 k q) = ix2 k q := by
    funext a; apply Fin.ext
    match a with
    | ⟨0, _⟩ => show win5_1.index t (0 : Fin 2) * 256 + 1 * k.val = k.val; omega
    | ⟨1, _⟩ => show win5_1.index t (1 : Fin 2) * 256 + 1 * q.val = q.val; omega
  have eleft : iblk5 V c 0 t (ix2 p k) = V c main_v29 (ix2 (⟨t.val * 5000 + p.val, hr⟩ : Fin 400000) k) := by
    show V c main_v29 (((cfg5.win 0).blk t).view.emb (ix2 p k)) = _
    rw [hleft]
  have eright : iblk5 V c 1 t (ix2 k q) = V c main_arg10 (ix2 k q) := by
    show V c main_arg10 (((cfg5.win 1).blk t).view.emb (ix2 k q)) = _
    rw [hright]
  rw [eleft, eright]

/-- An index of the output array lies in point `t`'s block iff each coordinate lies in the block's range on its axis. -/
theorem in_block_iff (t : Fin cfg5.N) (i : S400000x256.Idx) :
    i ∈ ((cfg5.win 2).blk t).view.set ↔ ∀ a : Fin 2, win5_2.index t a * S5000x256.size a ≤ (i a).val ∧ (i a).val < win5_2.index t a * S5000x256.size a + S5000x256.size a := by
  show i ∈ ((View.whole main_v31).slice (win5_2.rect t)).set ↔ _
  rw [View.set_slice_whole, Rect.mem_set_unit]
  exact Iff.rfl

/-- Row r of the output lies in the block of point r / 5000. -/
theorem every_row_written (i : S400000x256.Idx) :
    ∃ t : Fin cfg5.N, (cfg5.win 2).flush t = true ∧ i ∈ ((cfg5.win 2).blk t).view.set := by
  have hi0 : (i 0).val < 400000 := (i 0).isLt
  have hi1 : (i 1).val < 256 := (i 1).isLt
  have hlt : (i 0).val / 5000 < cfg5.N := by rw [show cfg5.N = 80 from N_5]; omega
  refine ⟨⟨(i 0).val / 5000, hlt⟩, flush5_2 _, ?_⟩
  obtain ⟨-, -, -, -, e4, e5⟩ := block_indices ⟨(i 0).val / 5000, hlt⟩
  rw [in_block_iff]
  intro a
  match a with
  | ⟨0, _⟩ =>
    show win5_2.index ⟨(i 0).val / 5000, hlt⟩ (0 : Fin 2) * 5000 ≤ (i 0).val ∧ (i 0).val < win5_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win5_2.index ⟨(i 0).val / 5000, hlt⟩ (1 : Fin 2) * 256 ≤ (i 1).val ∧ (i 1).val < win5_2.index ⟨(i 0).val / 5000, hlt⟩ (1 : Fin 2) * 256 + 256
    rw [e5]; omega

/-- THE OUTPUT ARRAY after the call: the matrix product of the two operand arrays as the call finds them. -/
theorem array_after (c : Dev nD) :
    (dat5 V c).arrAt 2 cfg5.N = matProd (M := 400000) (K := 256) (N := 256) (V c main_v29) (V c main_arg10) :=
  (dat5 V c).arrAt_eq_of_cover 2 _ (fun t _ => block_written V c t) every_row_written

end Cert.KernelIdeal.Region5

end
-- ==== Proof.Region6.lean ====
/-
  Pallas call 6 of the kernel: the final merge σ(a + b), entrywise, row block by row block.

  The grid has 10 points. Point t takes rows 5000·t … 5000·t + 4999 of the two 50000-row inputs, adds them, applies
  σ(v) = 1 / (1 + e^(-v)) to every entry and writes the block back at the same rows of the output. Both operations are
  entrywise, so the block point t writes is the same block of σ(a + b) of the whole arrays (`block_written`); the 10 blocks
  tile the 50000 rows (`every_row_written`), hence the output array ends holding σ(a + b) of the input arrays as the call
  finds them (`array_after`).
-/
import proofs.«159232_j19061064860111_1_alg».proof.Proof.Patched.KernelIdeal.Frame
import Idealize.ShloMosaic.Lib.Pipeline.Value
import Idealize.ShloMosaic.Lib.ValueIdx

set_option maxRecDepth 16384

noncomputable section

namespace Cert.KernelIdeal.Region6

open Idealize.ShloMosaic Idealize.ShloMosaic.TcCoe Idealize.SL.Sem Idealize.ShloMosaic.ValueIdx
open Cert.KernelIdeal Cert.KernelIdeal.Gen Cert.KernelIdeal.GenP

variable (V : (c : Dev nD) → (b : Ref sig .tc) → Buf (Elt Ideal) ((c : Thread nD τ).loc b))

theorem zero_offset : (![0, 0] : Fin 2 → Nat) = fun _ => 0 := funext fun a => by fin_cases a <;> rfl

/-- The body's arithmetic on two blocks: σ of their sum (re-laying a block out in its own shape changes nothing). -/
theorem merge_block (x0 x1 : Vec Ideal S5000x256 .f32) : k6_pay1 x0 x1 = logistic (F := Ideal) (addf x0 x1) := by
  show logistic (F := Ideal) (addf (shapeCast S5000x256 x0 shapeCasts_S5000x256_S5000x256) (shapeCast S5000x256 x1 shapeCasts_S5000x256_S5000x256)) = _
  rw [shapeCast_self, shapeCast_self]

/-- The printed index maps over the grid: every window's row block is the point's number, the column block is zero. -/
theorem block_indices : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- What point `t` writes back is block `t` of σ(a + b) of the whole input arrays. -/
theorem block_written (c : Dev nD) (t : Fin cfg6.N) :
    (dat6 V c).flushed 2 t = ((cfg6.win 2).blk t).view.read (Elt Ideal)
      (logistic (F := Ideal) (s := S50000x256) (φ := .f32) (addf (V c main_v44) (V c main_v57))) := by
  show (cfg6.win 2).cut (grid6.coords t) ((dat6 V c).after 2 t) = _
  rw [after6_2]
  unfold out6_2
  rw [View.canon_unit_zero zero_offset]
  simp only [View.ld_unit_zero (S := S5000x256) zero_offset]
  rw [merge_block]
  obtain ⟨e0, e1, e2, e3, e4, e5⟩ := block_indices t
  funext j
  show FloatOps.logistic (F := Ideal) (φ := .f32) (FloatOps.addf (F := Ideal) (φ := .f32) (V c main_v44 (((cfg6.win 0).blk t).view.emb j)) (V c main_v57 (((cfg6.win 1).blk t).view.emb j)))
    = FloatOps.logistic (F := Ideal) (φ := .f32) (FloatOps.addf (F := Ideal) (φ := .f32) (V c main_v44 (((cfg6.win 2).blk t).view.emb j)) (V c main_v57 (((cfg6.win 2).blk t).view.emb j)))
  have h0 : ((cfg6.win 0).blk t).view.emb j = ((cfg6.win 2).blk t).view.emb j := by
    funext a; apply Fin.ext
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 256 + 1 * (j 1).val = win6_2.index t (1 : Fin 2) * 256 + 1 * (j 1).val; omega
  have h1 : ((cfg6.win 1).blk t).view.emb j = ((cfg6.win 2).blk t).view.emb j := by
    funext a; apply Fin.ext
    match a with
    | ⟨0, _⟩ => show win6_1.index t (0 : Fin 2) * 5000 + 1 * (j 0).val = win6_2.index t (0 : Fin 2) * 5000 + 1 * (j 0).val; omega
    | ⟨1, _⟩ => show win6_1.index t (1 : Fin 2) * 256 + 1 * (j 1).val = win6_2.index t (1 : Fin 2) * 256 + 1 * (j 1).val; omega
  rw [h0, h1]

/-- An index of the output array lies in point `t`'s block iff each coordinate lies in the block's range on its axis. -/
theorem in_block_iff (t : Fin cfg6.N) (i : S50000x256.Idx) :
    i ∈ ((cfg6.win 2).blk t).view.set ↔ ∀ a : Fin 2, win6_2.index t a * S5000x256.size a ≤ (i a).val ∧ (i a).val < win6_2.index t a * S5000x256.size a + S5000x256.size a := by
  show i ∈ ((View.whole main_v58).slice (win6_2.rect t)).set ↔ _
  rw [View.set_slice_whole, Rect.mem_set_unit]
  exact Iff.rfl

/-- Row r of the output lies in the block of point r / 5000. -/
theorem every_row_written (i : S50000x256.Idx) :
    ∃ t : Fin cfg6.N, (cfg6.win 2).flush t = true ∧ i ∈ ((cfg6.win 2).blk t).view.set := by
  have hi0 : (i 0).val < 50000 := (i 0).isLt
  have hi1 : (i 1).val < 256 := (i 1).isLt
  have hlt : (i 0).val / 5000 < cfg6.N := by rw [show cfg6.N = 10 from N_6]; omega
  refine ⟨⟨(i 0).val / 5000, hlt⟩, flush6_2 _, ?_⟩
  obtain ⟨-, -, -, -, e4, e5⟩ := block_indices ⟨(i 0).val / 5000, hlt⟩
  rw [in_block_iff]
  intro a
  match a with
  | ⟨0, _⟩ =>
    show win6_2.index ⟨(i 0).val / 5000, hlt⟩ (0 : Fin 2) * 5000 ≤ (i 0).val ∧ (i 0).val < win6_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win6_2.index ⟨(i 0).val / 5000, hlt⟩ (1 : Fin 2) * 256 ≤ (i 1).val ∧ (i 1).val < win6_2.index ⟨(i 0).val / 5000, hlt⟩ (1 : Fin 2) * 256 + 256
    rw [e5]; omega

/-- THE OUTPUT ARRAY after the call: σ(a + b) of the input arrays as the call finds them. -/
theorem array_after (c : Dev nD) :
    (dat6 V c).arrAt 2 cfg6.N = logistic (F := Ideal) (s := S50000x256) (φ := .f32) (addf (V c main_v44) (V c main_v57)) :=
  (dat6 V c).arrAt_eq_of_cover 2 _ (fun t _ => block_written V c t) every_row_written

end Cert.KernelIdeal.Region6

end
-- ==== Proof.KernelValue.lean ====
/-
  What the kernel program's result buffer holds at the end, as a function of the arguments.

  The run leaves every buffer at the fold of @main's segments (`W0` the launch memory, `W1` … `W10` the contents after
  each segment). Walking the fold backwards from the result buffer:
    result   = σ(n2 + e2)                       (pallas call 6, from what the last host stretch leaves)
    n2       = A · (dense product 4),  e2 = B · (dense product 5)      (the last host stretch)
    product 4 = n1 · W10,  product 5 = e1 · W11                         (pallas calls 4 and 5)
    n1 = σ(A · product 0),  e1 = σ(Bᵀ · product 1)                      (pallas calls 2 and 3 after their host stretches)
    product 0 = x · W00,   product 1 = x · W01                          (pallas calls 0 and 1)
  where each pallas call's output array is its whole-array function of the arrays it finds (Region0 … Region6), each host
  stretch its segment sum of what it finds (Stretches), and an argument array or an earlier result is found unchanged
  at every later boundary because no later segment writes it. The composite is Spec.lean's `Bridge.result`.
-/
import proofs.«159232_j19061064860111_1_alg».proof.Proof.Patched.KernelIdeal.Frame
import proofs.«159232_j19061064860111_1_alg».proof.Proof.Spec
import proofs.«159232_j19061064860111_1_alg».proof.Proof.Stretches
import proofs.«159232_j19061064860111_1_alg».proof.Proof.Region0
import proofs.«159232_j19061064860111_1_alg».proof.Proof.Region1
import proofs.«159232_j19061064860111_1_alg».proof.Proof.Region2
import proofs.«159232_j19061064860111_1_alg».proof.Proof.Region3
import proofs.«159232_j19061064860111_1_alg».proof.Proof.Region4
import proofs.«159232_j19061064860111_1_alg».proof.Proof.Region5
import proofs.«159232_j19061064860111_1_alg».proof.Proof.Region6

set_option maxRecDepth 16384

noncomputable section

namespace Cert.KernelIdeal.Fold

open Idealize.ShloMosaic Idealize.ShloMosaic.TcCoe Idealize.SL.Sem
open Cert.KernelIdeal Cert.KernelIdeal.Gen Cert.KernelIdeal.GenP Cert.LibDotGeneralPlain

variable (m : (ℓ : Loc nD τ sig) → Buf (Elt Ideal) ℓ) (ρ : Dev nD → PrngReg) (c : Dev nD)

/-! ## An argument array no segment writes is found as launched at every boundary where it is read -/

theorem arg1_W2 : W2 m ρ c (Proc.devRef .tc main_arg1) = m ((c.tc : Thread nD τ).loc main_arg1) :=
  (W2_of_ne m ρ c main_arg1 (by decide)).trans ((W1_of_ne m ρ c main_arg1 (by decide)).trans rfl)
theorem arg1_W4 : W4 m ρ c (Proc.devRef .tc main_arg1) = m ((c.tc : Thread nD τ).loc main_arg1) :=
  (W4_of_ne m ρ c main_arg1 (by decide)).trans ((StableHlo.after_of_forall_not_mem _ _ (List.forall_iff_forall_mem.mp (by
    simp only [hostOps2, List.Forall, StableHlo.nullary_writes, StableHlo.unary_writes, StableHlo.binary_writes, StableHlo.ternary_writes, Finset.mem_singleton]
    repeat' apply And.intro
    all_goals exact StableHlo.devRef_ne_of_ne (by decide)))).trans (arg1_W2 m ρ c))
theorem arg1_W6 : W6 m ρ c (Proc.devRef .tc main_arg1) = m ((c.tc : Thread nD τ).loc main_arg1) :=
  (W6_of_ne m ρ c main_arg1 (by decide)).trans ((StableHlo.after_of_forall_not_mem _ _ (List.forall_iff_forall_mem.mp (by
    simp only [hostOps3, List.Forall, StableHlo.nullary_writes, StableHlo.unary_writes, StableHlo.binary_writes, StableHlo.ternary_writes, Finset.mem_singleton]
    repeat' apply And.intro
    all_goals exact StableHlo.devRef_ne_of_ne (by decide)))).trans (arg1_W4 m ρ c))
theorem arg1_W7 : W7 m ρ c (Proc.devRef .tc main_arg1) = m ((c.tc : Thread nD τ).loc main_arg1) :=
  (W7_of_ne m ρ c main_arg1 (by decide)).trans (arg1_W6 m ρ c)
theorem arg1_W8 : W8 m ρ c (Proc.devRef .tc main_arg1) = m ((c.tc : Thread nD τ).loc main_arg1) :=
  (W8_of_ne m ρ c main_arg1 (by decide)).trans (arg1_W7 m ρ c)
theorem arg2_W2 : W2 m ρ c (Proc.devRef .tc main_arg2) = m ((c.tc : Thread nD τ).loc main_arg2) :=
  (W2_of_ne m ρ c main_arg2 (by decide)).trans ((W1_of_ne m ρ c main_arg2 (by decide)).trans rfl)
theorem arg2_W4 : W4 m ρ c (Proc.devRef .tc main_arg2) = m ((c.tc : Thread nD τ).loc main_arg2) :=
  (W4_of_ne m ρ c main_arg2 (by decide)).trans ((StableHlo.after_of_forall_not_mem _ _ (List.forall_iff_forall_mem.mp (by
    simp only [hostOps2, List.Forall, StableHlo.nullary_writes, StableHlo.unary_writes, StableHlo.binary_writes, StableHlo.ternary_writes, Finset.mem_singleton]
    repeat' apply And.intro
    all_goals exact StableHlo.devRef_ne_of_ne (by decide)))).trans (arg2_W2 m ρ c))
theorem arg2_W6 : W6 m ρ c (Proc.devRef .tc main_arg2) = m ((c.tc : Thread nD τ).loc main_arg2) :=
  (W6_of_ne m ρ c main_arg2 (by decide)).trans ((StableHlo.after_of_forall_not_mem _ _ (List.forall_iff_forall_mem.mp (by
    simp only [hostOps3, List.Forall, StableHlo.nullary_writes, StableHlo.unary_writes, StableHlo.binary_writes, StableHlo.ternary_writes, Finset.mem_singleton]
    repeat' apply And.intro
    all_goals exact StableHlo.devRef_ne_of_ne (by decide)))).trans (arg2_W4 m ρ c))
theorem arg2_W7 : W7 m ρ c (Proc.devRef .tc main_arg2) = m ((c.tc : Thread nD τ).loc main_arg2) :=
  (W7_of_ne m ρ c main_arg2 (by decide)).trans (arg2_W6 m ρ c)
theorem arg2_W8 : W8 m ρ c (Proc.devRef .tc main_arg2) = m ((c.tc : Thread nD τ).loc main_arg2) :=
  (W8_of_ne m ρ c main_arg2 (by decide)).trans (arg2_W7 m ρ c)
theorem arg3_W2 : W2 m ρ c (Proc.devRef .tc main_arg3) = m ((c.tc : Thread nD τ).loc main_arg3) :=
  (W2_of_ne m ρ c main_arg3 (by decide)).trans ((W1_of_ne m ρ c main_arg3 (by decide)).trans rfl)
theorem arg3_W4 : W4 m ρ c (Proc.devRef .tc main_arg3) = m ((c.tc : Thread nD τ).loc main_arg3) :=
  (W4_of_ne m ρ c main_arg3 (by decide)).trans ((StableHlo.after_of_forall_not_mem _ _ (List.forall_iff_forall_mem.mp (by
    simp only [hostOps2, List.Forall, StableHlo.nullary_writes, StableHlo.unary_writes, StableHlo.binary_writes, StableHlo.ternary_writes, Finset.mem_singleton]
    repeat' apply And.intro
    all_goals exact StableHlo.devRef_ne_of_ne (by decide)))).trans (arg3_W2 m ρ c))
theorem arg3_W6 : W6 m ρ c (Proc.devRef .tc main_arg3) = m ((c.tc : Thread nD τ).loc main_arg3) :=
  (W6_of_ne m ρ c main_arg3 (by decide)).trans ((StableHlo.after_of_forall_not_mem _ _ (List.forall_iff_forall_mem.mp (by
    simp only [hostOps3, List.Forall, StableHlo.nullary_writes, StableHlo.unary_writes, StableHlo.binary_writes, StableHlo.ternary_writes, Finset.mem_singleton]
    repeat' apply And.intro
    all_goals exact StableHlo.devRef_ne_of_ne (by decide)))).trans (arg3_W4 m ρ c))
theorem arg3_W7 : W7 m ρ c (Proc.devRef .tc main_arg3) = m ((c.tc : Thread nD τ).loc main_arg3) :=
  (W7_of_ne m ρ c main_arg3 (by decide)).trans (arg3_W6 m ρ c)
theorem arg3_W8 : W8 m ρ c (Proc.devRef .tc main_arg3) = m ((c.tc : Thread nD τ).loc main_arg3) :=
  (W8_of_ne m ρ c main_arg3 (by decide)).trans (arg3_W7 m ρ c)
theorem arg4_W2 : W2 m ρ c (Proc.devRef .tc main_arg4) = m ((c.tc : Thread nD τ).loc main_arg4) :=
  (W2_of_ne m ρ c main_arg4 (by decide)).trans ((W1_of_ne m ρ c main_arg4 (by decide)).trans rfl)
theorem arg4_W4 : W4 m ρ c (Proc.devRef .tc main_arg4) = m ((c.tc : Thread nD τ).loc main_arg4) :=
  (W4_of_ne m ρ c main_arg4 (by decide)).trans ((StableHlo.after_of_forall_not_mem _ _ (List.forall_iff_forall_mem.mp (by
    simp only [hostOps2, List.Forall, StableHlo.nullary_writes, StableHlo.unary_writes, StableHlo.binary_writes, StableHlo.ternary_writes, Finset.mem_singleton]
    repeat' apply And.intro
    all_goals exact StableHlo.devRef_ne_of_ne (by decide)))).trans (arg4_W2 m ρ c))
theorem arg4_W6 : W6 m ρ c (Proc.devRef .tc main_arg4) = m ((c.tc : Thread nD τ).loc main_arg4) :=
  (W6_of_ne m ρ c main_arg4 (by decide)).trans ((StableHlo.after_of_forall_not_mem _ _ (List.forall_iff_forall_mem.mp (by
    simp only [hostOps3, List.Forall, StableHlo.nullary_writes, StableHlo.unary_writes, StableHlo.binary_writes, StableHlo.ternary_writes, Finset.mem_singleton]
    repeat' apply And.intro
    all_goals exact StableHlo.devRef_ne_of_ne (by decide)))).trans (arg4_W4 m ρ c))
theorem arg4_W7 : W7 m ρ c (Proc.devRef .tc main_arg4) = m ((c.tc : Thread nD τ).loc main_arg4) :=
  (W7_of_ne m ρ c main_arg4 (by decide)).trans (arg4_W6 m ρ c)
theorem arg4_W8 : W8 m ρ c (Proc.devRef .tc main_arg4) = m ((c.tc : Thread nD τ).loc main_arg4) :=
  (W8_of_ne m ρ c main_arg4 (by decide)).trans (arg4_W7 m ρ c)
theorem arg5_W2 : W2 m ρ c (Proc.devRef .tc main_arg5) = m ((c.tc : Thread nD τ).loc main_arg5) :=
  (W2_of_ne m ρ c main_arg5 (by decide)).trans ((W1_of_ne m ρ c main_arg5 (by decide)).trans rfl)
theorem arg5_W4 : W4 m ρ c (Proc.devRef .tc main_arg5) = m ((c.tc : Thread nD τ).loc main_arg5) :=
  (W4_of_ne m ρ c main_arg5 (by decide)).trans ((StableHlo.after_of_forall_not_mem _ _ (List.forall_iff_forall_mem.mp (by
    simp only [hostOps2, List.Forall, StableHlo.nullary_writes, StableHlo.unary_writes, StableHlo.binary_writes, StableHlo.ternary_writes, Finset.mem_singleton]
    repeat' apply And.intro
    all_goals exact StableHlo.devRef_ne_of_ne (by decide)))).trans (arg5_W2 m ρ c))
theorem arg5_W6 : W6 m ρ c (Proc.devRef .tc main_arg5) = m ((c.tc : Thread nD τ).loc main_arg5) :=
  (W6_of_ne m ρ c main_arg5 (by decide)).trans ((StableHlo.after_of_forall_not_mem _ _ (List.forall_iff_forall_mem.mp (by
    simp only [hostOps3, List.Forall, StableHlo.nullary_writes, StableHlo.unary_writes, StableHlo.binary_writes, StableHlo.ternary_writes, Finset.mem_singleton]
    repeat' apply And.intro
    all_goals exact StableHlo.devRef_ne_of_ne (by decide)))).trans (arg5_W4 m ρ c))
theorem arg5_W7 : W7 m ρ c (Proc.devRef .tc main_arg5) = m ((c.tc : Thread nD τ).loc main_arg5) :=
  (W7_of_ne m ρ c main_arg5 (by decide)).trans (arg5_W6 m ρ c)
theorem arg5_W8 : W8 m ρ c (Proc.devRef .tc main_arg5) = m ((c.tc : Thread nD τ).loc main_arg5) :=
  (W8_of_ne m ρ c main_arg5 (by decide)).trans (arg5_W7 m ρ c)
theorem arg6_W2 : W2 m ρ c (Proc.devRef .tc main_arg6) = m ((c.tc : Thread nD τ).loc main_arg6) :=
  (W2_of_ne m ρ c main_arg6 (by decide)).trans ((W1_of_ne m ρ c main_arg6 (by decide)).trans rfl)
theorem arg6_W4 : W4 m ρ c (Proc.devRef .tc main_arg6) = m ((c.tc : Thread nD τ).loc main_arg6) :=
  (W4_of_ne m ρ c main_arg6 (by decide)).trans ((StableHlo.after_of_forall_not_mem _ _ (List.forall_iff_forall_mem.mp (by
    simp only [hostOps2, List.Forall, StableHlo.nullary_writes, StableHlo.unary_writes, StableHlo.binary_writes, StableHlo.ternary_writes, Finset.mem_singleton]
    repeat' apply And.intro
    all_goals exact StableHlo.devRef_ne_of_ne (by decide)))).trans (arg6_W2 m ρ c))
theorem arg6_W6 : W6 m ρ c (Proc.devRef .tc main_arg6) = m ((c.tc : Thread nD τ).loc main_arg6) :=
  (W6_of_ne m ρ c main_arg6 (by decide)).trans ((StableHlo.after_of_forall_not_mem _ _ (List.forall_iff_forall_mem.mp (by
    simp only [hostOps3, List.Forall, StableHlo.nullary_writes, StableHlo.unary_writes, StableHlo.binary_writes, StableHlo.ternary_writes, Finset.mem_singleton]
    repeat' apply And.intro
    all_goals exact StableHlo.devRef_ne_of_ne (by decide)))).trans (arg6_W4 m ρ c))
theorem arg6_W7 : W7 m ρ c (Proc.devRef .tc main_arg6) = m ((c.tc : Thread nD τ).loc main_arg6) :=
  (W7_of_ne m ρ c main_arg6 (by decide)).trans (arg6_W6 m ρ c)
theorem arg6_W8 : W8 m ρ c (Proc.devRef .tc main_arg6) = m ((c.tc : Thread nD τ).loc main_arg6) :=
  (W8_of_ne m ρ c main_arg6 (by decide)).trans (arg6_W7 m ρ c)
theorem arg9_W2 : W2 m ρ c (Proc.devRef .tc main_arg9) = m ((c.tc : Thread nD τ).loc main_arg9) :=
  (W2_of_ne m ρ c main_arg9 (by decide)).trans ((W1_of_ne m ρ c main_arg9 (by decide)).trans rfl)
theorem arg9_W4 : W4 m ρ c (Proc.devRef .tc main_arg9) = m ((c.tc : Thread nD τ).loc main_arg9) :=
  (W4_of_ne m ρ c main_arg9 (by decide)).trans ((StableHlo.after_of_forall_not_mem _ _ (List.forall_iff_forall_mem.mp (by
    simp only [hostOps2, List.Forall, StableHlo.nullary_writes, StableHlo.unary_writes, StableHlo.binary_writes, StableHlo.ternary_writes, Finset.mem_singleton]
    repeat' apply And.intro
    all_goals exact StableHlo.devRef_ne_of_ne (by decide)))).trans (arg9_W2 m ρ c))
theorem arg9_W6 : W6 m ρ c (Proc.devRef .tc main_arg9) = m ((c.tc : Thread nD τ).loc main_arg9) :=
  (W6_of_ne m ρ c main_arg9 (by decide)).trans ((StableHlo.after_of_forall_not_mem _ _ (List.forall_iff_forall_mem.mp (by
    simp only [hostOps3, List.Forall, StableHlo.nullary_writes, StableHlo.unary_writes, StableHlo.binary_writes, StableHlo.ternary_writes, Finset.mem_singleton]
    repeat' apply And.intro
    all_goals exact StableHlo.devRef_ne_of_ne (by decide)))).trans (arg9_W4 m ρ c))
theorem arg10_W2 : W2 m ρ c (Proc.devRef .tc main_arg10) = m ((c.tc : Thread nD τ).loc main_arg10) :=
  (W2_of_ne m ρ c main_arg10 (by decide)).trans ((W1_of_ne m ρ c main_arg10 (by decide)).trans rfl)
theorem arg10_W4 : W4 m ρ c (Proc.devRef .tc main_arg10) = m ((c.tc : Thread nD τ).loc main_arg10) :=
  (W4_of_ne m ρ c main_arg10 (by decide)).trans ((StableHlo.after_of_forall_not_mem _ _ (List.forall_iff_forall_mem.mp (by
    simp only [hostOps2, List.Forall, StableHlo.nullary_writes, StableHlo.unary_writes, StableHlo.binary_writes, StableHlo.ternary_writes, Finset.mem_singleton]
    repeat' apply And.intro
    all_goals exact StableHlo.devRef_ne_of_ne (by decide)))).trans (arg10_W2 m ρ c))
theorem arg10_W6 : W6 m ρ c (Proc.devRef .tc main_arg10) = m ((c.tc : Thread nD τ).loc main_arg10) :=
  (W6_of_ne m ρ c main_arg10 (by decide)).trans ((StableHlo.after_of_forall_not_mem _ _ (List.forall_iff_forall_mem.mp (by
    simp only [hostOps3, List.Forall, StableHlo.nullary_writes, StableHlo.unary_writes, StableHlo.binary_writes, StableHlo.ternary_writes, Finset.mem_singleton]
    repeat' apply And.intro
    all_goals exact StableHlo.devRef_ne_of_ne (by decide)))).trans (arg10_W4 m ρ c))
theorem arg10_W7 : W7 m ρ c (Proc.devRef .tc main_arg10) = m ((c.tc : Thread nD τ).loc main_arg10) :=
  (W7_of_ne m ρ c main_arg10 (by decide)).trans (arg10_W6 m ρ c)

/-- The first argument is the left operand of pallas calls 0 and 1: an input window leaves its array as it was. -/
theorem arg0_W1 : W1 m ρ c (Proc.devRef .tc main_arg0) = m ((c.tc : Thread nD τ).loc main_arg0) :=
  (W1_arr m ρ c 0).trans (((dat0 (V0 m ρ) c).arrAt_in 0 rfl _).trans (A_eq0 (V0 m ρ) c 0))
theorem arg8_W1 : W1 m ρ c (Proc.devRef .tc main_arg8) = m ((c.tc : Thread nD τ).loc main_arg8) :=
  (W1_of_ne m ρ c main_arg8 (by decide)).trans rfl

/-! ## The intermediate results, boundary by boundary -/

/-- Dense product 0 after pallas call 0. -/
theorem v0_W1 : W1 m ρ c (Proc.devRef .tc main_v0) = matProd (M := 50000) (K := 256) (N := 256) (m ((c.tc : Thread nD τ).loc main_arg0)) (m ((c.tc : Thread nD τ).loc main_arg7)) :=
  (W1_arr m ρ c 2).trans (Region0.array_after (V0 m ρ) c)
theorem v0_W2 : W2 m ρ c (Proc.devRef .tc main_v0) = matProd (M := 50000) (K := 256) (N := 256) (m ((c.tc : Thread nD τ).loc main_arg0)) (m ((c.tc : Thread nD τ).loc main_arg7)) :=
  (W2_of_ne m ρ c main_v0 (by decide)).trans (v0_W1 m ρ c)

/-- Dense product 1 after pallas call 1. -/
theorem v1_W2 : W2 m ρ c (Proc.devRef .tc main_v1) = matProd (M := 50000) (K := 256) (N := 256) (m ((c.tc : Thread nD τ).loc main_arg0)) (m ((c.tc : Thread nD τ).loc main_arg8)) :=
  (W2_arr m ρ c 2).trans ((Region1.array_after (V1 m ρ) c).trans
    (congrArg₂ (matProd (M := 50000) (K := 256) (N := 256)) (arg0_W1 m ρ c) (arg8_W1 m ρ c)))
theorem v1_W4 : W4 m ρ c (Proc.devRef .tc main_v1) = matProd (M := 50000) (K := 256) (N := 256) (m ((c.tc : Thread nD τ).loc main_arg0)) (m ((c.tc : Thread nD τ).loc main_arg8)) :=
  (W4_of_ne m ρ c main_v1 (by decide)).trans ((StableHlo.after_of_forall_not_mem _ _ (List.forall_iff_forall_mem.mp (by
    simp only [hostOps2, List.Forall, StableHlo.nullary_writes, StableHlo.unary_writes, StableHlo.binary_writes, StableHlo.ternary_writes, Finset.mem_singleton]
    repeat' apply And.intro
    all_goals exact StableHlo.devRef_ne_of_ne (by decide)))).trans (v1_W2 m ρ c))

/-- A · (x W00) after the first host stretch. -/
theorem v14_W3 : W3 m ρ c (Proc.devRef .tc main_v14)
    = Cert.Bridge.nodesFromNodes (m ((c.tc : Thread nD τ).loc main_arg1)) (m ((c.tc : Thread nD τ).loc main_arg2)) (m ((c.tc : Thread nD τ).loc main_arg3))
        (matProd (M := 50000) (K := 256) (N := 256) (m ((c.tc : Thread nD τ).loc main_arg0)) (m ((c.tc : Thread nD τ).loc main_arg7))) := by
  refine (Stretches.level1_nodes (W2 m ρ c)).trans ?_
  rw [arg1_W2, arg2_W2, arg3_W2, v0_W2]

/-- n1 = σ(A · (x W00)) after pallas call 2. -/
theorem v15_W4 : W4 m ρ c (Proc.devRef .tc main_v15)
    = logistic (F := Ideal) (Cert.Bridge.nodesFromNodes (m ((c.tc : Thread nD τ).loc main_arg1)) (m ((c.tc : Thread nD τ).loc main_arg2)) (m ((c.tc : Thread nD τ).loc main_arg3))
        (matProd (M := 50000) (K := 256) (N := 256) (m ((c.tc : Thread nD τ).loc main_arg0)) (m ((c.tc : Thread nD τ).loc main_arg7)))) :=
  (W4_arr m ρ c 1).trans ((Region2.array_after (V3 m ρ) c).trans (congrArg (logistic (F := Ideal)) (v14_W3 m ρ c)))
theorem v15_W6 : W6 m ρ c (Proc.devRef .tc main_v15)
    = logistic (F := Ideal) (Cert.Bridge.nodesFromNodes (m ((c.tc : Thread nD τ).loc main_arg1)) (m ((c.tc : Thread nD τ).loc main_arg2)) (m ((c.tc : Thread nD τ).loc main_arg3))
        (matProd (M := 50000) (K := 256) (N := 256) (m ((c.tc : Thread nD τ).loc main_arg0)) (m ((c.tc : Thread nD τ).loc main_arg7)))) :=
  (W6_of_ne m ρ c main_v15 (by decide)).trans ((StableHlo.after_of_forall_not_mem _ _ (List.forall_iff_forall_mem.mp (by
    simp only [hostOps3, List.Forall, StableHlo.nullary_writes, StableHlo.unary_writes, StableHlo.binary_writes, StableHlo.ternary_writes, Finset.mem_singleton]
    repeat' apply And.intro
    all_goals exact StableHlo.devRef_ne_of_ne (by decide)))).trans (v15_W4 m ρ c))

/-- Bᵀ · (x W01) after the second host stretch. -/
theorem v28_W5 : W5 m ρ c (Proc.devRef .tc main_v28)
    = Cert.Bridge.edgesFromNodes (m ((c.tc : Thread nD τ).loc main_arg5)) (m ((c.tc : Thread nD τ).loc main_arg4)) (m ((c.tc : Thread nD τ).loc main_arg6))
        (matProd (M := 50000) (K := 256) (N := 256) (m ((c.tc : Thread nD τ).loc main_arg0)) (m ((c.tc : Thread nD τ).loc main_arg8))) := by
  refine (Stretches.level1_edges (W4 m ρ c)).trans ?_
  rw [arg5_W4, arg4_W4, arg6_W4, v1_W4]

/-- e1 = σ(Bᵀ · (x W01)) after pallas call 3. -/
theorem v29_W6 : W6 m ρ c (Proc.devRef .tc main_v29)
    = logistic (F := Ideal) (Cert.Bridge.edgesFromNodes (m ((c.tc : Thread nD τ).loc main_arg5)) (m ((c.tc : Thread nD τ).loc main_arg4)) (m ((c.tc : Thread nD τ).loc main_arg6))
        (matProd (M := 50000) (K := 256) (N := 256) (m ((c.tc : Thread nD τ).loc main_arg0)) (m ((c.tc : Thread nD τ).loc main_arg8)))) :=
  (W6_arr m ρ c 1).trans ((Region3.array_after (V5 m ρ) c).trans (congrArg (logistic (F := Ideal)) (v28_W5 m ρ c)))
theorem v29_W7 : W7 m ρ c (Proc.devRef .tc main_v29)
    = logistic (F := Ideal) (Cert.Bridge.edgesFromNodes (m ((c.tc : Thread nD τ).loc main_arg5)) (m ((c.tc : Thread nD τ).loc main_arg4)) (m ((c.tc : Thread nD τ).loc main_arg6))
        (matProd (M := 50000) (K := 256) (N := 256) (m ((c.tc : Thread nD τ).loc main_arg0)) (m ((c.tc : Thread nD τ).loc main_arg8)))) :=
  (W7_of_ne m ρ c main_v29 (by decide)).trans (v29_W6 m ρ c)

/-- Dense product 4 = n1 · W10 after pallas call 4. -/
theorem v30_W7 : W7 m ρ c (Proc.devRef .tc main_v30)
    = matProd (M := 50000) (K := 256) (N := 256) (logistic (F := Ideal) (Cert.Bridge.nodesFromNodes (m ((c.tc : Thread nD τ).loc main_arg1)) (m ((c.tc : Thread nD τ).loc main_arg2)) (m ((c.tc : Thread nD τ).loc main_arg3))
        (matProd (M := 50000) (K := 256) (N := 256) (m ((c.tc : Thread nD τ).loc main_arg0)) (m ((c.tc : Thread nD τ).loc main_arg7))))) (m ((c.tc : Thread nD τ).loc main_arg9)) :=
  (W7_arr m ρ c 2).trans ((Region4.array_after (V6 m ρ) c).trans
    (congrArg₂ (matProd (M := 50000) (K := 256) (N := 256)) (v15_W6 m ρ c) (arg9_W6 m ρ c)))
theorem v30_W8 : W8 m ρ c (Proc.devRef .tc main_v30)
    = matProd (M := 50000) (K := 256) (N := 256) (logistic (F := Ideal) (Cert.Bridge.nodesFromNodes (m ((c.tc : Thread nD τ).loc main_arg1)) (m ((c.tc : Thread nD τ).loc main_arg2)) (m ((c.tc : Thread nD τ).loc main_arg3))
        (matProd (M := 50000) (K := 256) (N := 256) (m ((c.tc : Thread nD τ).loc main_arg0)) (m ((c.tc : Thread nD τ).loc main_arg7))))) (m ((c.tc : Thread nD τ).loc main_arg9)) :=
  (W8_of_ne m ρ c main_v30 (by decide)).trans (v30_W7 m ρ c)

/-- Dense product 5 = e1 · W11 after pallas call 5. -/
theorem v31_W8 : W8 m ρ c (Proc.devRef .tc main_v31)
    = matProd (M := 400000) (K := 256) (N := 256) (logistic (F := Ideal) (Cert.Bridge.edgesFromNodes (m ((c.tc : Thread nD τ).loc main_arg5)) (m ((c.tc : Thread nD τ).loc main_arg4)) (m ((c.tc : Thread nD τ).loc main_arg6))
        (matProd (M := 50000) (K := 256) (N := 256) (m ((c.tc : Thread nD τ).loc main_arg0)) (m ((c.tc : Thread nD τ).loc main_arg8))))) (m ((c.tc : Thread nD τ).loc main_arg10)) :=
  (W8_arr m ρ c 2).trans ((Region5.array_after (V7 m ρ) c).trans
    (congrArg₂ (matProd (M := 400000) (K := 256) (N := 256)) (v29_W7 m ρ c) (arg10_W7 m ρ c)))

/-- THE RESULT BUFFER at the end of the run is the specification's function of the launch contents of the arguments. -/
theorem result_eq : W10 m ρ c (Proc.devRef .tc main_v58)
    = Cert.Bridge.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W10_arr m ρ c 2).trans ((Region6.array_after (V9 m ρ) c).trans ?_)
  have hn : V9 m ρ c main_v44 = _ := Stretches.level2_nodes (W8 m ρ c)
  have he : V9 m ρ c main_v57 = _ := Stretches.level2_edges (W8 m ρ c)
  rw [hn, he, arg1_W8, arg2_W8, arg3_W8, arg4_W8, arg5_W8, arg6_W8, v30_W8, v31_W8]
  rfl

end Cert.KernelIdeal.Fold

end
-- ==== Proof.RefValue.lean ====
/-
  The reference program's result as the specification's function of the arguments.

  The reference's run ends with its result buffer at the composed term of its 93 host operations. Read from the
  outside in, that term is σ — spelt 1 / (1 + e^(-v)) — of the sum of two segment sums of dense products of σ of segment
  sums of dense products of the arguments: Spec.lean's operations, with the host's spelling of σ and of the dense
  product. Over the extended reals the host's σ is the logistic function and the host's dense product is the matrix
  product (`sigma_nodes_eq`, `sigma_edges_eq`, `dense_nodes_eq`, `dense_edges_eq`), which turns the term into `Bridge.result`.
-/
import proofs.«159232_j19061064860111_1_alg».proof.Proof.Gen.ReferenceIdeal.Run
import proofs.«159232_j19061064860111_1_alg».proof.Proof.Spec

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Value Cert.Bridge

theorem result_eq (m : (ℓ : Loc nD τ sig) → Buf (Elt Ideal) ℓ) (c : Dev nD) :
    res_main_v74 (F := Ideal) m c
      = Cert.Bridge.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  show hostSigmaNodes (addf
      (nodesFromNodes (m ((c.tc : Thread nD τ).loc main_arg1)) (m ((c.tc : Thread nD τ).loc main_arg2)) (m ((c.tc : Thread nD τ).loc main_arg3))
        (Host.dotGeneral (F := Ideal) dot_S50000x256_S256x256_S50000x256_1_0_0_1_n_n none
          (hostSigmaNodes (nodesFromNodes (m ((c.tc : Thread nD τ).loc main_arg1)) (m ((c.tc : Thread nD τ).loc main_arg2)) (m ((c.tc : Thread nD τ).loc main_arg3))
            (Host.dotGeneral (F := Ideal) dot_S50000x256_S256x256_S50000x256_1_0_0_1_n_n none (m ((c.tc : Thread nD τ).loc main_arg0)) (m ((c.tc : Thread nD τ).loc main_arg7)))))
          (m ((c.tc : Thread nD τ).loc main_arg9))))
      (nodesFromEdges (m ((c.tc : Thread nD τ).loc main_arg4)) (m ((c.tc : Thread nD τ).loc main_arg5)) (m ((c.tc : Thread nD τ).loc main_arg6))
        (Host.dotGeneral (F := Ideal) dot_S400000x256_S256x256_S400000x256_1_0_0_1_n_n none
          (hostSigmaEdges (edgesFromNodes (m ((c.tc : Thread nD τ).loc main_arg5)) (m ((c.tc : Thread nD τ).loc main_arg4)) (m ((c.tc : Thread nD τ).loc main_arg6))
            (Host.dotGeneral (F := Ideal) dot_S50000x256_S256x256_S50000x256_1_0_0_1_n_n none (m ((c.tc : Thread nD τ).loc main_arg0)) (m ((c.tc : Thread nD τ).loc main_arg8)))))
          (m ((c.tc : Thread nD τ).loc main_arg10))))) = _
  simp only [sigma_nodes_eq, sigma_edges_eq, dense_nodes_eq, dense_edges_eq]
  rfl

end Cert.ReferenceIdeal.RefValue

end
-- ==== Proof.lean ====
/-
  The certificate: the Pallas kernel of a two-level graph message-passing layer against its jnp reference.

  Both programs compute σ(A·(σ(A·(x W00)) W10) + B·(σ(Bᵀ·(x W01)) W11)) for a 50000×256 node table x, four 256×256
  weight matrices, and two sparse matrices A (nodes to nodes) and B (nodes to edges, 400000 edges) in coordinate form,
  σ the logistic function. The sparse products are the same host operations in both. The kernel computes each dense
  product in a pallas call, row block by row block on the matrix unit after rounding to bf16, and each σ in a pallas
  call with one operation; the reference computes whole products and spells σ as 1 / (1 + e^(-v)).

  Over the extended reals a change of float format is the identity, the matrix unit's product into a zero accumulator is
  the exact sum over the contracted axis — so a product computed block by block is the whole product —, and the two
  spellings of σ are one function. Hence both results are one function of the arguments (Spec.lean's `Bridge.result`):
  the kernel's by reading each pallas call's output array and each host stretch off the run (Region0 … Region6, Stretches,
  KernelValue, over KernelRun), the reference's by reading its composed term (RefValue). No law used needs a finite input,
  so the precondition is not opened. The ideal pass rewrote nothing, so `preserves` is trivial.
-/
import proofs.«159232_j19061064860111_1_alg».proof.Defs
import proofs.«159232_j19061064860111_1_alg».proof.Proof.Gen.Kernel
import proofs.«159232_j19061064860111_1_alg».proof.Proof.Gen.Kernel.Skeleton
import proofs.«159232_j19061064860111_1_alg».proof.Proof.Gen.Kernel.Points
import proofs.«159232_j19061064860111_1_alg».proof.Proof.Patched.Kernel.Launch
import proofs.«159232_j19061064860111_1_alg».proof.Proof.Patched.Kernel.Frame
import proofs.«159232_j19061064860111_1_alg».proof.Proof.Gen.KernelIdeal
import proofs.«159232_j19061064860111_1_alg».proof.Proof.Gen.KernelIdeal.Skeleton
import proofs.«159232_j19061064860111_1_alg».proof.Proof.Gen.KernelIdeal.Points
import proofs.«159232_j19061064860111_1_alg».proof.Proof.Patched.KernelIdeal.Launch
import proofs.«159232_j19061064860111_1_alg».proof.Proof.Patched.KernelIdeal.Frame
import proofs.«159232_j19061064860111_1_alg».proof.Proof.Gen.ReferenceIdeal
import proofs.«159232_j19061064860111_1_alg».proof.Proof.Gen.Pre_finite_inputs
import proofs.«159232_j19061064860111_1_alg».proof.Proof.Gen.ReferenceIdeal.Run
import proofs.«159232_j19061064860111_1_alg».proof.Proof.KernelRun
import proofs.«159232_j19061064860111_1_alg».proof.Proof.KernelValue
import proofs.«159232_j19061064860111_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.GenP.frame m ρ

/-- The idealized kernel runs and leaves its arguments unchanged. -/
theorem frame_kernel_ideal : Cert.frame_KernelIdeal := fun m ρ _ => Cert.KernelIdeal.GenP.frame m ρ

/-- The idealized reference runs and leaves its arguments unchanged: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the specification's function of the
    arguments in their result buffers. -/
theorem algebraic : Cert.algebraic_KernelIdeal_ReferenceIdeal := by
  intro m ρ m' ρ' _ hagree
  refine ⟨fun c => Cert.Bridge.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Fold.result_eq m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.RefValue.result_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
